-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S1024x1280 .f32
  ∧ IdealRules.sign_bit.Statement Cert.KernelIdeal.S1024x500 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1280 : Shape := ⟨2, ![32768, 1280]⟩
abbrev S500x1280 : Shape := ⟨2, ![500, 1280]⟩
abbrev S500 : Shape := ⟨1, ![500]⟩
abbrev S10x500 : Shape := ⟨2, ![10, 500]⟩
abbrev S10 : Shape := ⟨1, ![10]⟩
abbrev S_ : Shape := ⟨0, ![]⟩

class Facts : Prop where
  bcast_S_S32768x1280 : S_.BroadcastsInDim S32768x1280 (![] : Fin 0 → Fin S32768x1280.rank)
  reducesTo_S32768x1280_S_d0_1 : S32768x1280.ReducesTo [0, 1] S_
  h_S_ : 0 < S_.numel
  bcast_S_S500x1280 : S_.BroadcastsInDim S500x1280 (![] : Fin 0 → Fin S500x1280.rank)
  reducesTo_S500x1280_S_d0_1 : S500x1280.ReducesTo [0, 1] S_
  bcast_S_S500 : S_.BroadcastsInDim S500 (![] : Fin 0 → Fin S500.rank)
  reducesTo_S500_S_d0 : S500.ReducesTo [0] S_
  bcast_S_S10x500 : S_.BroadcastsInDim S10x500 (![] : Fin 0 → Fin S10x500.rank)
  reducesTo_S10x500_S_d0_1 : S10x500.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S500 .f32) (main_arg5 : FVec F S10x500 .f32) (main_arg6 : FVec F S10 .f32) (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S10x500 .f32 := Host.absf main_arg5
  let main_cst_8 : FVec F S_ .f32 := constant S_ .f32 0x7F800000#32
  let main_v25 : FVec F S10x500 .f32 := broadcastInDim S10x500 ![] bcast_S_S10x500 main_cst_8
  let main_v26 : IVec S10x500 1 := cmpf .olt main_v24 main_v25
  let main_c_9 : IVec S_ 1 := constantI S_ 1 1#1
  let main_v27 : IVec S_ 1 := (fun x v => Host.reduce IntOp.andi x v reducesTo_S10x500_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S32768x1280 .f32) (main_arg1 : FVec F S500x1280 .f32) (main_arg2 : FVec F S500 .f32) (main_arg3 : FVec F S500 .f32) (main_arg4 : FVec F S500 .f32) (main_arg5 : FVec F S10x500 .f32) (main_arg6 : FVec F S10 .f32) : IVec S_ 1 :=
  let main_v0 : FVec F S32768x1280 .f32 := Host.absf main_arg0
  let main_cst : FVec F S_ .f32 := constant S_ .f32 0x7F800000#32
  let main_v1 : FVec F S32768x1280 .f32 := broadcastInDim S32768x1280 ![] bcast_S_S32768x1280 main_cst
  let main_v2 : IVec S32768x1280 1 := cmpf .olt main_v0 main_v1
  let main_c : IVec S_ 1 := constantI S_ 1 1#1
  let main_v3 : IVec S_ 1 := (fun x v => Host.reduce IntOp.andi x v reducesTo_S32768x1280_S_d0_1 h_S_) main_v2 main_c
  let main_v4 : FVec F S500x1280 .f32 := Host.absf main_arg1
  let main_cst_0 : FVec F S_ .f32 := constant S_ .f32 0x7F800000#32
  let main_v5 : FVec F S500x1280 .f32 := broadcastInDim S500x1280 ![] bcast_S_S500x1280 main_cst_0
  let main_v6 : IVec S500x1280 1 := cmpf .olt main_v4 main_v5
  let main_c_1 : IVec S_ 1 := constantI S_ 1 1#1
  let main_v7 : IVec S_ 1 := (fun x v => Host.reduce IntOp.andi x v reducesTo_S500x1280_S_d0_1 h_S_) main_v6 main_c_1
  let main_v8 : IVec S_ 1 := andi main_v3 main_v7
  let main_v9 : FVec F S500 .f32 := Host.absf main_arg2
  let main_cst_2 : FVec F S_ .f32 := constant S_ .f32 0x7F800000#32
  let main_v10 : FVec F S500 .f32 := broadcastInDim S500 ![] bcast_S_S500 main_cst_2
  let main_v11 : IVec S500 1 := cmpf .olt main_v9 main_v10
  let main_c_3 : IVec S_ 1 := constantI S_ 1 1#1
  let main_v12 : IVec S_ 1 := (fun x v => Host.reduce IntOp.andi x v reducesTo_S500_S_d0 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_arg4 main_arg5 main_arg6 main_v13 main_v16
-- ==== Kernel.lean ====
abbrev S32768x1280 : Shape := ⟨2, ![32768, 1280]⟩
abbrev S500x1280 : Shape := ⟨2, ![500, 1280]⟩
abbrev S500 : Shape := ⟨1, ![500]⟩
abbrev S10x500 : Shape := ⟨2, ![10, 500]⟩
abbrev S10 : Shape := ⟨1, ![10]⟩
abbrev S1280x500 : Shape := ⟨2, ![1280, 500]⟩
abbrev S500x10 : Shape := ⟨2, ![500, 10]⟩
abbrev S32768x500 : Shape := ⟨2, ![32768, 500]⟩
abbrev S32x1x500 : Shape := ⟨3, ![32, 1, 500]⟩
abbrev S1024x1280 : Shape := ⟨2, ![1024, 1280]⟩
abbrev S1024x500 : Shape := ⟨2, ![1024, 500]⟩
abbrev S1x1x500 : Shape := ⟨3, ![1, 1, 500]⟩
abbrev S1x500 : Shape := ⟨2, ![1, 500]⟩
abbrev S_ : Shape := ⟨0, ![]⟩
abbrev S32768x10 : Shape := ⟨2, ![32768, 10]⟩
abbrev S1024x10 : Shape := ⟨2, ![1024, 10]⟩
abbrev S1x10 : Shape := ⟨2, ![1, 10]⟩

abbrev nBuf : Space → Nat
  | .hbm => 29
  | .vmem => 20
  | .smem => 0
  | _ => 0

abbrev bufTy : (tb : Table) → Fin (tcTables nBuf tb) → BufTy
  | .hbm, ⟨0, _⟩ => ⟨S32768x1280, .f32⟩
  | .hbm, ⟨1, _⟩ => ⟨S500x1280, .f32⟩
  | .hbm, ⟨2, _⟩ => ⟨S500, .f32⟩
  | .hbm, ⟨3, _⟩ => ⟨S500, .f32⟩
  | .hbm, ⟨4, _⟩ => ⟨S500, .f32⟩
  | .hbm, ⟨5, _⟩ => ⟨S10x500, .f32⟩
  | .hbm, ⟨6, _⟩ => ⟨S10, .f32⟩
  | .hbm, ⟨7, _⟩ => ⟨S500x1280, .f32⟩
  | .hbm, ⟨8, _⟩ => ⟨S500x1280, .bf16⟩
  | .hbm, ⟨9, _⟩ => ⟨S1280x500, .bf16⟩
  | .hbm, ⟨10, _⟩ => ⟨S10x500, .f32⟩
  | .hbm, ⟨11, _⟩ => ⟨S10x500, .bf16⟩
  | .hbm, ⟨12, _⟩ => ⟨S500x10, .bf16⟩
  | .hbm, ⟨13, _⟩ => ⟨S32768x500, .f32⟩
  | .hbm, ⟨14, _⟩ => ⟨S32x1x500, .f32⟩
  | .hbm, ⟨15, _⟩ => ⟨S32x1x500, .f32⟩
  | .hbm, ⟨16, _⟩ => ⟨S_, .f32⟩
  | .hbm, ⟨17, _⟩ => ⟨S500, .f32⟩
  | .hbm, ⟨18, _⟩ => ⟨S_, .f32⟩
  | .hbm, ⟨19, _⟩ => ⟨S500, .f32⟩
  | .hbm, ⟨20, _⟩ => ⟨S_, .f32⟩
  | .hbm, ⟨21, _⟩ => ⟨S500, .f32⟩
  | .hbm, ⟨22, _⟩ => ⟨S500, .f32⟩
  | .hbm, ⟨23, _⟩ => ⟨S_, .f32⟩
  | .hbm, ⟨24, _⟩ => ⟨S500, .f32⟩
  | .hbm, ⟨25, _⟩ => ⟨S500, .f32⟩
  | .hbm, ⟨26, _⟩ => ⟨S500, .f32⟩
  | .hbm, ⟨27, _⟩ => ⟨S500, .f32⟩
  | .hbm, ⟨28, _⟩ => ⟨S32768x10, .f32⟩
  | .local _ .vmem, ⟨0, _⟩ => ⟨S1024x1280, .f32⟩
  | .local _ .vmem, ⟨1, _⟩ => ⟨S1024x1280, .f32⟩
  | .local _ .vmem, ⟨2, _⟩ => ⟨S1280x500, .bf16⟩
  | .local _ .vmem, ⟨3, _⟩ => ⟨S500, .f32⟩
  | .local _ .vmem, ⟨4, _⟩ => ⟨S1024x500, .f32⟩
  | .local _ .vmem, ⟨5, _⟩ => ⟨S1024x500, .f32⟩
  | .local _ .vmem, ⟨6, _⟩ => ⟨S1x1x500, .f32⟩
  | .local _ .vmem, ⟨7, _⟩ => ⟨S1x1x500, .f32⟩
  | .local _ .vmem, ⟨8, _⟩ => ⟨S1x1x500, .f32⟩
  | .local _ .vmem, ⟨9, _⟩ => ⟨S1x1x500, .f32⟩
  | .local _ .vmem, ⟨10, _⟩ => ⟨S1024x500, .f32⟩
  | .local _ .vmem, ⟨11, _⟩ => ⟨S1024x500, .f32⟩
  | .local _ .vmem, ⟨12, _⟩ => ⟨S500, .f32⟩
  | .local _ .vmem, ⟨13, _⟩ => ⟨S500, .f32⟩
  | .local _ .vmem, ⟨14, _⟩ => ⟨S500, .f32⟩
  | .local _ .vmem, ⟨15, _⟩ => ⟨S500, .f32⟩
  | .local _ .vmem, ⟨16, _⟩ => ⟨S500x10, .bf16⟩
  | .local _ .vmem, ⟨17, _⟩ => ⟨S10, .f32⟩
  | .local _ .vmem, ⟨18, _⟩ => ⟨S1024x10, .f32⟩
  | .local _ .vmem, ⟨19, _⟩ => ⟨S1024x10, .f32⟩
  | _, _ => ⟨S32768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x500 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S500 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S500 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S500 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S500 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S500x10 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x10 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  transposes_S500x1280_S1280x500_1_0 : S500x1280.Transposes [1, 0] S1280x500
  transposes_S10x500_S500x10_1_0 : S10x500.Transposes [1, 0] S500x10
  inb_S1024x1280_S1024x1280_0_0 : ∀ a, (![0, 0] : Fin 2 → Nat) a + S1024x1280.size a ≤ S1024x1280.size a
  h_S1024x1280 : 0 < S1024x1280.numel
  inb_S1280x500_S1280x500_0_0 : ∀ a, (![0, 0] : Fin 2 → Nat) a + S1280x500.size a ≤ S1280x500.size a
  h_S1280x500 : 0 < S1280x500.numel
  shapeCasts_S1280x500_S1280x500 : S1280x500.ShapeCasts S1280x500
  inb_S500_S500_0 : ∀ a, (![0] : Fin 1 → Nat) a + S500.size a ≤ S500.size a
  h_S500 : 0 < S500.numel
  shapeCasts_S500_S1x500 : S500.ShapeCasts S1x500
  broadcasts_S1x500_S1024x500 : S1x500.Broadcasts S1024x500
  inb_S1024x500_S1024x500_0_0 : ∀ a, (![0, 0] : Fin 2 → Nat) a + S1024x500.size a ≤ S1024x500.size a
  h_S1024x500 : 0 < S1024x500.numel
  reduces_S1024x500_S500 : S1024x500.Reduces [0] S500
  shapeCasts_S1x500_S1x1x500 : S1x500.ShapeCasts S1x1x500
  inb_S1x1x500_S1x1x500_0_0_0 : ∀ a, (![0, 0, 0] : Fin 3 → Nat) a + S1x1x500.size a ≤ S1x1x500.size a
  h_S1x1x500 : 0 < S1x1x500.numel
  reducesTo_S32x1x500_S500_d0_1 : S32x1x500.ReducesTo [0, 1] S500
  h_S_ : 0 < S_.numel
  bcast_S_S500 : S_.BroadcastsInDim S500 (![] : Fin 0 → Fin S500.rank)
  shapeCasts_S1024x500_S1024x500 : S1024x500.ShapeCasts S1024x500
  shapeCasts_S500_S500 : S500.ShapeCasts S500
  inb_S500x10_S500x10_0_0 : ∀ a, (![0, 0] : Fin 2 → Nat) a + S500x10.size a ≤ S500x10.size a
  h_S500x10 : 0 < S500x10.numel
  shapeCasts_S500x10_S500x10 : S500x10.ShapeCasts S500x10
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x1280_S1280x500_S1024x500_1_0_0_1_n_n_wf : DotDims.WF S1024x1280 S1280x500 S1024x500 [1] [0] [0] [1] [] []
  dot_S1024x500_S500x10_S1024x10_1_0_0_1_n_n_wf : DotDims.WF S1024x500 S500x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S32768x1280.size a
  hwx0_0 : ∀ i : grid0.Coords, EltTy.bits .f32 = 32 ∨ (Rect.block (s := S32768x1280) S1024x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x500.size a ≤ S1280x500.size a
  hwx0_1 : ∀ i : grid0.Coords, EltTy.bits .bf16 = 32 ∨ (Rect.block (s := S1280x500) S1280x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500.size a ≤ S500.size a
  hwx0_2 : ∀ i : grid0.Coords, EltTy.bits .f32 = 32 ∨ (Rect.block (s := S500) S500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x500.size a ≤ S32768x500.size a
  hwx0_3 : ∀ i : grid0.Coords, EltTy.bits .f32 = 32 ∨ (Rect.block (s := S32768x500) S1024x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x500.size a ≤ S32x1x500.size a
  hwx0_4 : ∀ i : grid0.Coords, EltTy.bits .f32 = 32 ∨ (Rect.block (s := S32x1x500) S1x1x500.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x500.size a ≤ S32x1x500.size a
  hwx0_5 : ∀ i : grid0.Coords, EltTy.bits .f32 = 32 ∨ (Rect.block (s := S32x1x500) S1x1x500.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x500.size a ≤ S32768x500.size a
  hwx1_0 : ∀ i : grid1.Coords, EltTy.bits .f32 = 32 ∨ (Rect.block (s := S32768x500) S1024x500.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S500.size a ≤ S500.size a
  hwx1_1 : ∀ i : grid1.Coords, EltTy.bits .f32 = 32 ∨ (Rect.block (s := S500) S500.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S500.size a ≤ S500.size a
  hwx1_2 : ∀ i : grid1.Coords, EltTy.bits .f32 = 32 ∨ (Rect.block (s := S500) S500.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S500.size a ≤ S500.size a
  hwx1_3 : ∀ i : grid1.Coords, EltTy.bits .f32 = 32 ∨ (Rect.block (s := S500) S500.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S500.size a ≤ S500.size a
  hwx1_4 : ∀ i : grid1.Coords, EltTy.bits .f32 = 32 ∨ (Rect.block (s := S500) S500.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S500x10.size a ≤ S500x10.size a
  hwx1_5 : ∀ i : grid1.Coords, EltTy.bits .bf16 = 32 ∨ (Rect.block (s := S500x10) S500x10.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10.size a ≤ S10.size a
  hwx1_6 : ∀ i : grid1.Coords, EltTy.bits .f32 = 32 ∨ (Rect.block (s := S10) S10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x10.size a ≤ S32768x10.size a
  hwx1_7 : ∀ i : grid1.Coords, EltTy.bits .f32 = 32 ∨ (Rect.block (s := S32768x10) S1024x10.size (cc1_transform_7 i) (hinb1_7 i)).WholeWords (EltTy.packing .f32)

variable [Facts₀]

def dot_S1024x1280_S1280x500_S1024x500_1_0_0_1_n_n : DotDims S1024x1280 S1280x500 S1024x500 where
  lhsContracting := [1]
  rhsContracting := [0]
  lhsNonContracting := [0]
  rhsNonContracting := [1]
  lhsBatch := []
  rhsBatch := []
  wf := dot_S1024x1280_S1280x500_S1024x500_1_0_0_1_n_n_wf
def dot_S1024x500_S500x10_S1024x10_1_0_0_1_n_n : DotDims S1024x500 S500x10 S1024x10 where
  lhsContracting := [1]
  rhsContracting := [0]
  lhsNonContracting := [0]
  rhsNonContracting := [1]
  lhsBatch := []
  rhsBatch := []
  wf := dot_S1024x500_S500x10_S1024x10_1_0_0_1_n_n_wf

abbrev win0_0 : Pipeline.Window sig grid0 :=
  Pipeline.Window.ofSpec (Memref.whole main_arg0) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1024x500.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1x500.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x1x500.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S1024x500.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S500.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S500.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S500.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S500.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S500x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1024x10.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32768x1280 : Shape := ⟨2, ![32768, 1280]⟩
abbrev S500x1280 : Shape := ⟨2, ![500, 1280]⟩
abbrev S500 : Shape := ⟨1, ![500]⟩
abbrev S10x500 : Shape := ⟨2, ![10, 500]⟩
abbrev S10 : Shape := ⟨1, ![10]⟩
abbrev S32768x500 : Shape := ⟨2, ![32768, 500]⟩
abbrev S1x500 : Shape := ⟨2, ![1, 500]⟩
abbrev S_ : Shape := ⟨0, ![]⟩
abbrev S32768x10 : Shape := ⟨2, ![32768, 10]⟩
abbrev S1x10 : Shape := ⟨2, ![1, 10]⟩

abbrev nBuf : Space → Nat
  | .hbm => 52
  | .vmem => 0
  | .smem => 0
  | _ => 0

abbrev bufTy : (tb : Table) → Fin (tcTables nBuf tb) → BufTy
  | .hbm, ⟨0, _⟩ => ⟨S32768x1280, .f32⟩
  | .hbm, ⟨1, _⟩ => ⟨S500x1280, .f32⟩
  | .hbm, ⟨2, _⟩ => ⟨S500, .f32⟩
  | .hbm, ⟨3, _⟩ => ⟨S500, .f32⟩
  | .hbm, ⟨4, _⟩ => ⟨S500, .f32⟩
  | .hbm, ⟨5, _⟩ => ⟨S10x500, .f32⟩
  | .hbm, ⟨6, _⟩ => ⟨S10, .f32⟩
  | .hbm, ⟨7, _⟩ => ⟨S32768x1280, .f32⟩
  | .hbm, ⟨8, _⟩ => ⟨S500x1280, .f32⟩
  | .hbm, ⟨9, _⟩ => ⟨S32768x500, .f32⟩
  | .hbm, ⟨10, _⟩ => ⟨S1x500, .f32⟩
  | .hbm, ⟨11, _⟩ => ⟨S32768x500, .f32⟩
  | .hbm, ⟨12, _⟩ => ⟨S32768x500, .f32⟩
  | .hbm, ⟨13, _⟩ => ⟨S_, .f32⟩
  | .hbm, ⟨14, _⟩ => ⟨S500, .f32⟩
  | .hbm, ⟨15, _⟩ => ⟨S_, .f32⟩
  | .hbm, ⟨16, _⟩ => ⟨S500, .f32⟩
  | .hbm, ⟨17, _⟩ => ⟨S500, .f32⟩
  | .hbm, ⟨18, _⟩ => ⟨S1x500, .f32⟩
  | .hbm, ⟨19, _⟩ => ⟨S32768x500, .f32⟩
  | .hbm, ⟨20, _⟩ => ⟨S32768x500, .f32⟩
  | .hbm, ⟨21, _⟩ => ⟨S32768x500, .f32⟩
  | .hbm, ⟨22, _⟩ => ⟨S_, .f32⟩
  | .hbm, ⟨23, _⟩ => ⟨S500, .f32⟩
  | .hbm, ⟨24, _⟩ => ⟨S_, .f32⟩
  | .hbm, ⟨25, _⟩ => ⟨S500, .f32⟩
  | .hbm, ⟨26, _⟩ => ⟨S500, .f32⟩
  | .hbm, ⟨27, _⟩ => ⟨S1x500, .f32⟩
  | .hbm, ⟨28, _⟩ => ⟨S32768x500, .f32⟩
  | .hbm, ⟨29, _⟩ => ⟨S32768x500, .f32⟩
  | .hbm, ⟨30, _⟩ => ⟨S_, .f32⟩
  | .hbm, ⟨31, _⟩ => ⟨S500, .f32⟩
  | .hbm, ⟨32, _⟩ => ⟨S500, .f32⟩
  | .hbm, ⟨33, _⟩ => ⟨S500, .f32⟩
  | .hbm, ⟨34, _⟩ => ⟨S1x500, .f32⟩
  | .hbm, ⟨35, _⟩ => ⟨S32768x500, .f32⟩
  | .hbm, ⟨36, _⟩ => ⟨S32768x500, .f32⟩
  | .hbm, ⟨37, _⟩ => ⟨S1x500, .f32⟩
  | .hbm, ⟨38, _⟩ => ⟨S32768x500, .f32⟩
  | .hbm, ⟨39, _⟩ => ⟨S32768x500, .f32⟩
  | .hbm, ⟨40, _⟩ => ⟨S1x500, .f32⟩
  | .hbm, ⟨41, _⟩ => ⟨S32768x500, .f32⟩
  | .hbm, ⟨42, _⟩ => ⟨S32768x500, .f32⟩
  | .hbm, ⟨43, _⟩ => ⟨S_, .f32⟩
  | .hbm, ⟨44, _⟩ => ⟨S32768x500, .f32⟩
  | .hbm, ⟨45, _⟩ => ⟨S32768x500, .f32⟩
  | .hbm, ⟨46, _⟩ => ⟨S32768x500, .f32⟩
  | .hbm, ⟨47, _⟩ => ⟨S10x500, .f32⟩
  | .hbm, ⟨48, _⟩ => ⟨S32768x10, .f32⟩
  | .hbm, ⟨49, _⟩ => ⟨S1x10, .f32⟩
  | .hbm, ⟨50, _⟩ => ⟨S32768x10, .f32⟩
  | .hbm, ⟨51, _⟩ => ⟨S32768x10, .f32⟩
  | _, _ => ⟨S32768x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  bcast_S500_S1x500_1 : S500.BroadcastsInDim S1x500 (![1] : Fin 1 → Fin S1x500.rank)
  bcast_S1x500_S32768x500_0_1 : S1x500.BroadcastsInDim S32768x500 (![0, 1] : Fin 2 → Fin S32768x500.rank)
  reducesTo_S32768x500_S500_d0 : S32768x500.ReducesTo [0] S500
  h_S_ : 0 < S_.numel
  bcast_S_S500 : S_.BroadcastsInDim S500 (![] : Fin 0 → Fin S500.rank)
  bcast_S_S32768x500 : S_.BroadcastsInDim S32768x500 (![] : Fin 0 → Fin S32768x500.rank)
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  dot_S32768x1280_S500x1280_S32768x500_1_1_0_0_n_n_wf : DotDims.WF S32768x1280 S500x1280 S32768x500 [1] [1] [0] [0] [] []
  dot_S32768x500_S10x500_S32768x10_1_1_0_0_n_n_wf : DotDims.WF S32768x500 S10x500 S32768x10 [1] [1] [0] [0] [] []

variable [Facts₀]

def dot_S32768x1280_S500x1280_S32768x500_1_1_0_0_n_n : DotDims S32768x1280 S500x1280 S32768x500 where
  lhsContracting := [1]
  rhsContracting := [1]
  lhsNonContracting := [0]
  rhsNonContracting := [0]
  lhsBatch := []
  rhsBatch := []
  wf := dot_S32768x1280_S500x1280_S32768x500_1_1_0_0_n_n_wf
def dot_S32768x500_S10x500_S32768x10_1_1_0_0_n_n : DotDims S32768x500 S10x500 S32768x10 where
  lhsContracting := [1]
  rhsContracting := [1]
  lhsNonContracting := [0]
  rhsNonContracting := [0]
  lhsBatch := []
  rhsBatch := []
  wf := dot_S32768x500_S10x500_S32768x10_1_1_0_0_n_n_wf

class Facts : Prop extends Facts₀ where

variable [Facts]
-- ==== Proof.NetSpec.lean ====
/-
  The network both programs compute, over the extended reals, entry by entry.

  A batch of 32768 rows x (1280 features), two weight matrices W1 (500 x 1280), W2 (10 x 500), biases b1, b2 and the
  batch-norm scale and shift gamma, beta.  Every input entry and every weight entry is replaced by its sign
  (-1, 0 or 1).  The hidden pre-activation of row b at unit o is

      hid b o = (sum over k < 1280 of sign x(b,k) * sign W1(o,k)) + b1 o .

  Unit o is normalised over the batch by its mean and a variance, scaled and shifted, clipped below at zero, and
  replaced by its sign again; the output of row b at class q is

      out b q = (sum over j < 500 of act b j * sign W2(q,j)) + b2 q .

  The variance is written in two ways: as the mean of the squared deviations from the mean (`varCentred`), and as
  the mean of the squares minus the square of the mean (`varMoments`).  Over the reals the two are one number,

      (1/N) sum (h - mu)^2 = (1/N) sum h^2 - mu^2     with mu = (1/N) sum h ,

  by expanding the square and using N * (1/N) = 1.  On the extended reals a product does not distribute over a sum
  at the infinities, so the identity is proved where every hid b o is a real number, which it is as soon as the bias
  b1 is real: the signs are real whatever the inputs are (`varMoments_eq_varCentred`).
-/
import Idealize.ShloMosaic.Lib.ValueIdx
import Idealize.ShloMosaic.PureOps.Ideal.Laws

noncomputable section

namespace Cert.NetSpec

open Idealize.ShloMosaic Idealize.ShloMosaic.ValueIdx
open scoped BigOperators

/-! ## The three float words the programs spell -/

/-- The word of 0.0. -/
abbrev zeroW : EReal := Ideal.ofBits .f32 0x00000000#32
/-- The word of 32768.0, the batch size. -/
abbrev batchW : EReal := Ideal.ofBits .f32 0x47000000#32
/-- The word of the batch-norm epsilon. -/
abbrev epsW : EReal := Ideal.ofBits .f32 0x3727C5AC#32

theorem zeroW_eq : zeroW = 0 := Ideal.ofBits_zero_f32

/-- The word 0x47000000 denotes the real number 32768. -/
theorem batchW_eq : batchW = ((32768 : ℝ) : EReal) := by
  simp [batchW, Ideal.ofBits, Ideal.ieee, -EReal.coe_mul]; norm_num

/-! ## The network -/

section Net

variable (x : (⟨2, ![32768, 1280]⟩ : Shape).Idx → EReal) (W1 : (⟨2, ![500, 1280]⟩ : Shape).Idx → EReal)
  (b1 gamma beta : (⟨1, ![500]⟩ : Shape).Idx → EReal) (W2 : (⟨2, ![10, 500]⟩ : Shape).Idx → EReal)
  (b2 : (⟨1, ![10]⟩ : Shape).Idx → EReal)

/-- The hidden pre-activation of row `b` at unit `o`. -/
def hid (b : Fin 32768) (o : Fin 500) : EReal :=
  (∑ k : Fin 1280, Ideal.sign (x (ix2 b k)) * Ideal.sign (W1 (ix2 o k))) + b1 (ix1 o)

/-- The batch mean of unit `o`. -/
def mean (o : Fin 500) : EReal := Ideal.div (zeroW + ∑ b : Fin 32768, hid x W1 b1 b o) batchW

/-- The variance of unit `o` as the mean of the squared deviations. -/
def varCentred (o : Fin 500) : EReal :=
  Ideal.div (zeroW + ∑ b : Fin 32768, (hid x W1 b1 b o - mean x W1 b1 o) * (hid x W1 b1 b o - mean x W1 b1 o)) batchW

/-- The variance of unit `o` as the mean of the squares minus the squared mean. -/
def varMoments (o : Fin 500) : EReal :=
  Ideal.div (zeroW + ∑ b : Fin 32768, hid x W1 b1 b o * hid x W1 b1 b o) batchW - mean x W1 b1 o * mean x W1 b1 o

/-- The binarised activation of row `b` at unit `o`, for a variance `v`. -/
def act (v : Fin 500 → EReal) (b : Fin 32768) (o : Fin 500) : EReal :=
  Ideal.sign (max (((hid x W1 b1 b o - mean x W1 b1 o) * Ideal.rsqrt (v o + epsW)) * gamma (ix1 o) + beta (ix1 o)) zeroW)

/-- The output of row `b` at class `q`, for a variance `v`. -/
def out (v : Fin 500 → EReal) (b : Fin 32768) (q : Fin 10) : EReal :=
  (∑ j : Fin 500, act x W1 b1 gamma beta v b j * Ideal.sign (W2 (ix2 q j))) + b2 (ix1 q)

/-- The whole result array, with the variance of the squared deviations. -/
def result : (⟨2, ![32768, 10]⟩ : Shape).Idx → EReal :=
  fun i => out x W1 b1 gamma beta W2 b2 (varCentred x W1 b1) (i 0) (i 1)

end Net

/-! ## The two variances agree where the hidden values are real -/

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- The sign of an extended real is a real number. -/
theorem sign_real (a : EReal) : ∃ s : ℝ, Ideal.sign a = (s : EReal) := by
  induction a using EReal.rec with
  | bot => exact ⟨-1, by rw [Ideal.sign_bot]; norm_num⟩
  | top => exact ⟨1, by rw [Ideal.sign_top]; norm_num⟩
  | coe r => exact ⟨_, Ideal.sign_coe r⟩

/-- The mean of the squares minus the squared mean is the mean of the squared deviations: expand the square, and
    `N * (1/N) = 1`. -/
theorem real_variance {ι : Type*} [Fintype ι] (N : ℝ) (hcard : (Fintype.card ι : ℝ) = N) (hN : N ≠ 0) (f : ι → ℝ) :
    (∑ b, f b * f b) * (1 / N) - ((∑ b, f b) * (1 / N)) * ((∑ b, f b) * (1 / N))
      = (∑ b, (f b - (∑ b, f b) * (1 / N)) * (f b - (∑ b, f b) * (1 / N))) * (1 / N) := by
  have hsq : ∀ μ : ℝ, ∑ b, (f b - μ) * (f b - μ) = (∑ b, f b * f b) - 2 * μ * (∑ b, f b) + N * (μ * μ) := fun μ => by
    have e : ∀ b, (f b - μ) * (f b - μ) = f b * f b - 2 * μ * f b + μ * μ := fun b => by ring
    simp only [e, Finset.sum_add_distrib, Finset.sum_sub_distrib, ← Finset.mul_sum, Finset.sum_const, Finset.card_univ,
      nsmul_eq_mul, hcard]
    ring
  rw [hsq]
  field_simp
  ring

variable (x : (⟨2, ![32768, 1280]⟩ : Shape).Idx → EReal) (W1 : (⟨2, ![500, 1280]⟩ : Shape).Idx → EReal)
  (b1 : (⟨1, ![500]⟩ : Shape).Idx → EReal)

/-- With a real bias every hidden value is a real number: the signs are real, and so are their products and sums. -/
theorem hid_real (o : Fin 500) (hb : ∃ r : ℝ, b1 (ix1 o) = (r : EReal)) (b : Fin 32768) :
    ∃ r : ℝ, hid x W1 b1 b o = (r : EReal) := by
  obtain ⟨rb, hrb⟩ := hb
  choose sx hsx using fun k : Fin 1280 => sign_real (x (ix2 b k))
  choose sw hsw using fun k : Fin 1280 => sign_real (W1 (ix2 o k))
  refine ⟨(∑ k : Fin 1280, sx k * sw k) + rb, ?_⟩
  unfold hid
  rw [hrb, EReal.coe_add, ← coe_sum]
  refine congrArg (· + (rb : EReal)) (Finset.sum_congr rfl fun k _ => ?_)
  rw [hsx, hsw, EReal.coe_mul]

/-- THE LAW: where the bias of unit `o` is real, its two variances are one extended real. -/
theorem varMoments_eq_varCentred (o : Fin 500) (hb : ∃ r : ℝ, b1 (ix1 o) = (r : EReal)) :
    varMoments x W1 b1 o = varCentred x W1 b1 o := by
  choose f hf using hid_real x W1 b1 o hb
  have h32 : (32768 : ℝ) ≠ 0 := by norm_num
  have hmean : mean x W1 b1 o = (((∑ b, f b) * (1 / 32768) : ℝ) : EReal) := by
    unfold mean
    rw [zeroW_eq, zero_add, batchW_eq, Ideal.div_coe h32, Finset.sum_congr rfl fun b _ => hf b, coe_sum, ← EReal.coe_mul]
  unfold varMoments varCentred
  rw [hmean, zeroW_eq, zero_add, zero_add, batchW_eq, Ideal.div_coe h32, Ideal.div_coe h32,
    Finset.sum_congr rfl fun b _ => show hid x W1 b1 b o * hid x W1 b1 b o = ((f b * f b : ℝ) : EReal) by
      rw [hf b, EReal.coe_mul],
    Finset.sum_congr rfl fun b _ => show (hid x W1 b1 b o - (((∑ b, f b) * (1 / 32768) : ℝ) : EReal))
        * (hid x W1 b1 b o - (((∑ b, f b) * (1 / 32768) : ℝ) : EReal))
        = (((f b - (∑ b, f b) * (1 / 32768)) * (f b - (∑ b, f b) * (1 / 32768)) : ℝ) : EReal) by
      rw [hf b, ← EReal.coe_sub, EReal.coe_mul],
    coe_sum, coe_sum, ← EReal.coe_mul, ← EReal.coe_mul, ← EReal.coe_mul, ← EReal.coe_sub]
  exact congrArg _ (real_variance 32768 (by simp) h32 f)

end Cert.NetSpec

end
-- ==== Proof.RefNet.lean ====
/-
  The reference program computes the network of NetSpec.lean.

  Its run is a chain of stages, one per operation.  Read one stage at a time, at an index given by its coordinates:
  the first product and the bias give the hidden value `hid b o`; the sum over the batch divided by 32768 is the mean;
  the sum of the squared deviations divided by 32768 is the centred variance; the normalised, scaled, shifted and
  clipped value has the sign `act`; the second product and its bias give `out`.  Each broadcast only repeats a
  per-unit value along the batch, so at (b, o) it reads the value of unit o.
-/
import proofs.«144757_j21904333209753_2_alg».proof.Proof.Gen.ReferenceIdeal.Read
import proofs.«144757_j21904333209753_2_alg».proof.Proof.NetSpec

noncomputable section

namespace Cert.RefNet

open Idealize.ShloMosaic Idealize.ShloMosaic.ValueIdx Cert.ReferenceIdeal Cert.ReferenceIdeal.Read Cert.NetSpec
open scoped BigOperators

variable (x0 : (⟨S32768x1280, .f32⟩ : BufTy).Contents (Elt Ideal)) (x1 : (⟨S500x1280, .f32⟩ : BufTy).Contents (Elt Ideal))
  (x2 x3 x4 : (⟨S500, .f32⟩ : BufTy).Contents (Elt Ideal)) (x5 : (⟨S10x500, .f32⟩ : BufTy).Contents (Elt Ideal))
  (x6 : (⟨S10, .f32⟩ : BufTy).Contents (Elt Ideal))

/-- The reference's first layer at (b, o) is the hidden value. -/
theorem ref_hid (b : Fin 32768) (o : Fin 500) : val_main_v5 (F := Ideal) x0 x1 x2 (ix2 b o) = hid x0 x1 x2 b o := by
  rw [val_main_v5_apply, val_main_v2_apply, val_main_v4_apply, val_main_v3_apply]
  unfold hid
  show (∑ k : Fin 1280, _) + _ = _
  refine congrArg₂ (· + ·) (Finset.sum_congr rfl fun k _ => ?_) (congrArg x2 ?_)
  · rw [val_main_v0_apply, val_main_v1_apply]
    show Ideal.sign (x0 _) * Ideal.sign (x1 _) = _
    refine congrArg₂ (fun u v => Ideal.sign (x0 u) * Ideal.sign (x1 v)) ?_ ?_
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The reference's batch mean of unit o. -/
theorem ref_mean (o : Fin 500) : val_main_v8 (F := Ideal) x0 x1 x2 (ix1 o) = mean x0 x1 x2 o := by
  rw [val_main_v8_apply, val_main_v6_apply, val_main_v7_apply]
  unfold mean
  show Ideal.div (zeroW + ∑ k : Fin 32768, _) batchW = _
  refine congrArg (fun s => Ideal.div (zeroW + s) batchW) (Finset.sum_congr rfl fun k _ => ?_)
  rw [show idx_main_v6 (ix1 o) k = ix2 k o from funext fun a => Fin.ext (by match a with | ⟨0, _⟩ => rfl | ⟨1, _⟩ => rfl)]
  exact ref_hid x0 x1 x2 k o

/-- The mean repeated along the batch reads, at (b, o), the mean of unit o. -/
theorem ref_mean_bcast (b : Fin 32768) (o : Fin 500) : val_main_v10 (F := Ideal) x0 x1 x2 (ix2 b o) = mean x0 x1 x2 o := by
  rw [val_main_v10_apply, val_main_v9_apply,
    show idx_main_v9 (idx_main_v10 (ix2 b o)) = ix1 o from funext fun a => Fin.ext (by match a with | ⟨0, _⟩ => rfl)]
  exact ref_mean x0 x1 x2 o

theorem ref_mean_bcast' (b : Fin 32768) (o : Fin 500) : val_main_v17 (F := Ideal) x0 x1 x2 (ix2 b o) = mean x0 x1 x2 o := by
  rw [val_main_v17_apply, val_main_v16_apply,
    show idx_main_v16 (idx_main_v17 (ix2 b o)) = ix1 o from funext fun a => Fin.ext (by match a with | ⟨0, _⟩ => rfl)]
  exact ref_mean x0 x1 x2 o

/-- The reference's variance of unit o is the mean of the squared deviations. -/
theorem ref_var (o : Fin 500) : val_main_v15 (F := Ideal) x0 x1 x2 (ix1 o) = varCentred x0 x1 x2 o := by
  rw [val_main_v15_apply, val_main_v13_apply, val_main_v14_apply]
  unfold varCentred
  show Ideal.div (zeroW + ∑ k : Fin 32768, _) batchW = _
  refine congrArg (fun s => Ideal.div (zeroW + s) batchW) (Finset.sum_congr rfl fun k _ => ?_)
  rw [show idx_main_v13 (ix1 o) k = ix2 k o from funext fun a => Fin.ext (by match a with | ⟨0, _⟩ => rfl | ⟨1, _⟩ => rfl),
    val_main_v12_apply, val_main_v11_apply, ref_hid, ref_mean_bcast]
  rfl

/-- The reference's binarised activation at (b, o). -/
theorem ref_act (b : Fin 32768) (o : Fin 500) :
    val_main_v32 (F := Ideal) x0 x1 x2 x3 x4 (ix2 b o) = act x0 x1 x2 x3 x4 (varCentred x0 x1 x2) b o := by
  rw [val_main_v32_apply, val_main_v31_apply, val_main_v30_apply, val_main_v27_apply, val_main_v24_apply, val_main_v18_apply,
    ref_hid, ref_mean_bcast', val_main_v23_apply, val_main_v22_apply,
    show idx_main_v22 (idx_main_v23 (ix2 b o)) = ix1 o from funext fun a => Fin.ext (by match a with | ⟨0, _⟩ => rfl),
    val_main_v21_apply, val_main_v20_apply, ref_var, val_main_v19_apply, val_main_v26_apply, val_main_v25_apply,
    show idx_main_v25 (idx_main_v26 (ix2 b o)) = ix1 o from funext fun a => Fin.ext (by match a with | ⟨0, _⟩ => rfl),
    val_main_v29_apply, val_main_v28_apply,
    show idx_main_v28 (idx_main_v29 (ix2 b o)) = ix1 o from funext fun a => Fin.ext (by match a with | ⟨0, _⟩ => rfl),
    val_main_call0_v0_apply]
  rfl

/-- The reference's result array is the network's. -/
theorem ref_result : val_main_v37 (F := Ideal) x0 x1 x2 x3 x4 x5 x6 = result x0 x1 x2 x3 x4 x5 x6 := by
  funext i
  obtain ⟨b, q, rfl⟩ : ∃ (b : Fin 32768) (q : Fin 10), i = ix2 b q := ⟨i 0, i 1, eq_ix2 i⟩
  rw [val_main_v37_apply, val_main_v34_apply, val_main_v36_apply, val_main_v35_apply]
  show (∑ k : Fin 500, _) + _ = (∑ j : Fin 500, _) + _
  refine congrArg₂ (· + ·) (Finset.sum_congr rfl fun k _ => ?_) (congrArg x6 ?_)
  · rw [show lidx_main_v34 (ix2 b q) k = ix2 b k from funext fun a => Fin.ext (by match a with | ⟨0, _⟩ => rfl | ⟨1, _⟩ => rfl),
      ref_act, val_main_v33_apply]
    show _ * Ideal.sign (x5 _) = _
    exact congrArg (fun u => act x0 x1 x2 x3 x4 (varCentred x0 x1 x2) b k * Ideal.sign (x5 u))
      (funext fun a => Fin.ext (by match a with | ⟨0, _⟩ => rfl | ⟨1, _⟩ => rfl))
  · exact funext fun a => Fin.ext (by match a with | ⟨0, _⟩ => rfl)

end Cert.RefNet

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.FiniteBias.lean ====
/-
  The precondition makes the first bias real.

  The precondition compares |x| with +infinity entry by entry, for every input array, and reduces the one-bit answers
  by "and"; it holds when the result is 1.  A conjunction that is 1 has both parts 1, and an all-reduction that is 1 has
  every entry 1.  Over the extended reals |x| = max x (-x) and the word 0x7F800000 is +infinity, so |x| < +infinity says
  that x is neither infinity: it is a real number.  Only the first bias is needed (the law joining the two variances
  needs real hidden values, and the signs of the other operands are real whatever they are).
-/
import proofs.«144757_j21904333209753_2_alg».proof.Proof.Gen.Pre_finite_inputs
import proofs.«144757_j21904333209753_2_alg».proof.Proof.LibFiniteTest
import Idealize.ShloMosaic.Lib.ReduceAll
import Idealize.ShloMosaic.Lib.ValueIdx
import Idealize.ShloMosaic.PureOps.Ideal.Laws

noncomputable section

namespace Cert.FiniteBias

open Idealize.ShloMosaic Idealize.ShloMosaic.ValueIdx Cert.Pre_finite_inputs

/-- A rank-0 shape has one index. -/
instance : Subsingleton S_.Idx := ⟨fun a b => funext fun d => d.elim0⟩

/-- Under the precondition every entry of the first bias is a real number. -/
theorem bias_real (a0 : FVec Ideal S32768x1280 .f32) (a1 : FVec Ideal S500x1280 .f32) (a2 a3 a4 : FVec Ideal S500 .f32)
    (a5 : FVec Ideal S10x500 .f32) (a6 : FVec Ideal S10 .f32)
    (h : fn (F := Ideal) a0 a1 a2 a3 a4 a5 a6 = fun _ => 1#1) (o : Fin 500) : ∃ q : ℝ, a2 (ix1 o) = (q : EReal) := by
  have h0 : fn (F := Ideal) a0 a1 a2 a3 a4 a5 a6 ix0 = 1#1 := congrFun h ix0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).2
  have h6 := Host.reduce_andi_all _ _ _ _ ix0 h5 (ix1 o)
  exact Cert.LibFiniteTest.real_of_test (a2 (ix1 o)) h6

end Cert.FiniteBias

end
-- ==== Proof.WholeRun.lean ====
/-
  The idealized kernel program's run, with its result named.

  The program is four stretches in a row: the host lines that lay out the two sign matrices, the first kernel over its
  32 grid points, the host lines that turn the partial sums into the mean and the variance, and the second kernel over
  its 32 grid points.  Every weakly fair execution ends, and ends with every buffer of the TensorCore at the contents the
  last stretch leaves: the fold of the four stretches from the launch memory.  Read at the result buffer this names
  the result as what the second kernel's pipeline leaves in its output array; read at an argument it is the argument as
  launched.
-/
import proofs.«144757_j21904333209753_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second kernel's output array. -/
theorem result_is_output : Pipeline.arrRef spec1 7 = main_v15 := rfl

set_option backward.isDefEq.respectTransparency.types false in
/-- Every weakly fair execution of the program from the launch memory terminates, nothing faulting; the result buffer
    ends at what the second pipeline leaves in its output array, and the arguments end as launched. -/
theorem run : θ_run defs (onTc (τ := τ) (main (F := F))) ⟨m, fun _ => 0, ρ⟩ (fun r => ∀ c : Dev nD,
      r.2.mem ((c.tc : Thread nD τ).loc main_v15) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.WholeRun

end
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.FirstLayer.lean ====
/-
  What one grid point of the first kernel stores, entry by entry.

  The kernel holds a block of 1024 rows of the input (1024 x 1280), the whole sign matrix of W1 laid out as
  1280 x 500, and the bias.  It replaces every input entry by its sign (the select-by-comparison form of the sign is
  the sign of the extended real, zero included), multiplies the sign block with the weight layout — a plain
  (1024 x 1280) by (1280 x 500) product, a sum over the 1280 shared positions — and adds the bias along the rows:

      h(r, o) = (sum over k < 1280 of sign x(r, k) * w(k, o)) + b(o).

  The two small outputs are the column sums of h and of h * h over the block's 1024 rows, stored as a 1 x 1 x 500 row.
-/
import proofs.«144757_j21904333209753_2_alg».proof.Proof.Gen.KernelIdeal.Skeleton
import proofs.«144757_j21904333209753_2_alg».proof.Proof.LibAxisReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FirstLayer

open Idealize.ShloMosaic Idealize.ShloMosaic.ValueIdx Cert.KernelIdeal Cert.KernelIdeal.Gen
open scoped BigOperators

/-- The left operand of the block product is read at the output's row … -/
theorem product_lhs_row (i : S1024x500.Idx) (q : dot_S1024x1280_S1280x500_S1024x500_1_0_0_1_n_n.contr.Idx) :
    (dot_S1024x1280_S1280x500_S1024x500_1_0_0_1_n_n.lhsIdx i q 0).val = (i 0).val := by
  unfold DotDims.lhsIdx
  rw [dif_neg (show ¬(0 : Fin S1024x1280.rank) ∈ dot_S1024x1280_S1280x500_S1024x500_1_0_0_1_n_n.lhsBatch by decide),
    dif_pos (show (0 : Fin S1024x1280.rank) ∈ dot_S1024x1280_S1280x500_S1024x500_1_0_0_1_n_n.lhsNonContracting by decide)]
  rfl
/-- … and the shared position, -/
theorem product_lhs_shared (i : S1024x500.Idx) (q : dot_S1024x1280_S1280x500_S1024x500_1_0_0_1_n_n.contr.Idx) :
    (dot_S1024x1280_S1280x500_S1024x500_1_0_0_1_n_n.lhsIdx i q 1).val = (q ⟨0, by decide⟩).val :=
  dot_S1024x1280_S1280x500_S1024x500_1_0_0_1_n_n.lhsIdx_val_of_single rfl i q
/-- the right operand at the shared position … -/
theorem product_rhs_shared (i : S1024x500.Idx) (q : dot_S1024x1280_S1280x500_S1024x500_1_0_0_1_n_n.contr.Idx) :
    (dot_S1024x1280_S1280x500_S1024x500_1_0_0_1_n_n.rhsIdx i q 0).val = (q ⟨0, by decide⟩).val :=
  dot_S1024x1280_S1280x500_S1024x500_1_0_0_1_n_n.rhsIdx_val_of_single rfl i q
/-- … and the output's column. -/
theorem product_rhs_col (i : S1024x500.Idx) (q : dot_S1024x1280_S1280x500_S1024x500_1_0_0_1_n_n.contr.Idx) :
    (dot_S1024x1280_S1280x500_S1024x500_1_0_0_1_n_n.rhsIdx i q 1).val = (i 1).val := by
  unfold DotDims.rhsIdx
  rw [dif_neg (show ¬(1 : Fin S1280x500.rank) ∈ dot_S1024x1280_S1280x500_S1024x500_1_0_0_1_n_n.rhsBatch by decide),
    dif_pos (show (1 : Fin S1280x500.rank) ∈ dot_S1024x1280_S1280x500_S1024x500_1_0_0_1_n_n.rhsNonContracting by decide)]
  rfl

/-- The block product into a zero accumulator, at (p, o): the sum over the 1280 shared positions. -/
theorem product_apply (l : FVec Ideal S1024x1280 .bf16) (r : FVec Ideal S1280x500 .bf16) (p : Fin 1024) (o : Fin 500) :
    matmul dot_S1024x1280_S1280x500_S1024x500_1_0_0_1_n_n none l r (constant S1024x500 .f32 0x00000000#32) (ix2 p o)
      = ∑ k : Fin 1280, l (ix2 p k) * r (ix2 k o) := by
  simp only [matmul]
  rw [Ideal.matmul_constant_zero_apply,
    ← Equiv.sum_comp (contrEquiv1 dot_S1024x1280_S1280x500_S1024x500_1_0_0_1_n_n 1280 rfl rfl).symm]
  refine Finset.sum_congr rfl fun k _ => ?_
  have hk := contrEquiv1_symm_val dot_S1024x1280_S1280x500_S1024x500_1_0_0_1_n_n 1280 rfl rfl k
  have el : dot_S1024x1280_S1280x500_S1024x500_1_0_0_1_n_n.lhsIdx (ix2 p o)
      ((contrEquiv1 dot_S1024x1280_S1280x500_S1024x500_1_0_0_1_n_n 1280 rfl rfl).symm k) = ix2 p k :=
    funext fun a => Fin.ext (by
      match a with
      | ⟨0, _⟩ => exact product_lhs_row _ _
      | ⟨1, _⟩ => exact (product_lhs_shared _ _).trans hk)
  have er : dot_S1024x1280_S1280x500_S1024x500_1_0_0_1_n_n.rhsIdx (ix2 p o)
      ((contrEquiv1 dot_S1024x1280_S1280x500_S1024x500_1_0_0_1_n_n 1280 rfl rfl).symm k) = ix2 k o :=
    funext fun a => Fin.ext (by
      match a with
      | ⟨0, _⟩ => exact (product_rhs_shared _ _).trans hk
      | ⟨1, _⟩ => exact product_rhs_col _ _)
  rw [el, er]

/-- A vector of 500 recast as a 1 x 1 x 500 row reads, at (u, v, o), its entry o. -/
theorem row3_apply (y : FVec Ideal S500 .f32) (h1 : S500.ShapeCasts S1x500) (h2 : S1x500.ShapeCasts S1x1x500)
    (u v : Fin 1) (o : Fin 500) : shapeCast S1x1x500 (shapeCast S1x500 y h1) h2 (ix3 u v o) = y (ix1 o) :=
  (shapeCast_ab_1ab_apply _ h2 u v o).trans (shapeCast_a_1a_apply y h1 v o)

variable (v0 : Vec Ideal S1024x1280 .f32) (v12 : Vec Ideal S1280x500 .bf16) (v15 : Vec Ideal S500 .f32)

/-- The block of hidden values the point stores, at (r, o). -/
theorem hidden_apply (r : Fin 1024) (o : Fin 500) :
    k0_pay1 (F := Ideal) v0 v12 v15 (ix2 r o)
      = (∑ k : Fin 1280, Ideal.sign (v0 (ix2 r k)) * v12 (ix2 k o)) + v15 (ix1 o) := by
  unfold k0_pay1
  refine (addf_apply _ _ _).trans (congrArg₂ (· + ·) ?_ ?_)
  · refine (product_apply _ _ r o).trans (Finset.sum_congr rfl fun k _ => congrArg₂ (· * ·) ?_ ?_)
    · exact Ideal.jnp_sign_eq_sign_f32 (v0 (ix2 r k))
    · exact congrFun (shapeCast_self v12 _) (ix2 k o)
  · exact (broadcastTo_1b_ab_apply _ _ r o).trans (shapeCast_a_1a_apply v15 _ 0 o)

/-- The block's column sums, at (u, v, o). -/
theorem sums_apply (u v : Fin 1) (o : Fin 500) :
    k0_pay2 (F := Ideal) v0 v12 v15 (ix3 u v o) = ∑ r : Fin 1024, k0_pay1 (F := Ideal) v0 v12 v15 (ix2 r o) := by
  unfold k0_pay2
  exact (row3_apply _ _ _ u v o).trans (Cert.LibAxisReads.colSum_apply _ _ _ _ o)

/-- The block's column sums of squares, at (u, v, o). -/
theorem squareSums_apply (u v : Fin 1) (o : Fin 500) :
    k0_pay3 (F := Ideal) v0 v12 v15 (ix3 u v o)
      = ∑ r : Fin 1024, k0_pay1 (F := Ideal) v0 v12 v15 (ix2 r o) * k0_pay1 (F := Ideal) v0 v12 v15 (ix2 r o) := by
  unfold k0_pay3
  exact (row3_apply _ _ _ u v o).trans (Cert.LibAxisReads.colSum_apply _ _ _ _ o)

end Cert.KernelIdeal.FirstLayer

end
-- ==== Proof.FirstArrays.lean ====
/-
  The three arrays the first kernel leaves, as whole-array functions of what it finds on entry.

  Grid point t holds rows 1024 t … 1024 t + 1023 of the input and of the hidden array, the whole weight layout and the
  whole bias, and row t of each of the two 32 x 1 x 500 arrays of partial sums: a block's entry (r, k) is the array's
  entry (1024 t + r, k), because a block's coordinate is always block index x block size + the coordinate inside it.
  So what point t writes back is the block t of

      hidden(b, o) = (sum over k of sign x(b, k) * w(k, o)) + bias(o),
      sums(t, 0, o) = sum over r < 1024 of hidden(1024 t + r, o),     squares(t, 0, o) likewise of hidden * hidden.

  The 32 blocks tile each array (row b lies in block b / 1024; row t of a partial-sum array is block t), every point
  writes its block back, so each array ends as its function everywhere.
-/
import proofs.«144757_j21904333209753_2_alg».proof.Proof.Gen.KernelIdeal.Frame
import proofs.«144757_j21904333209753_2_alg».proof.Proof.FirstLayer

set_option maxRecDepth 16384

noncomputable section

namespace Cert.KernelIdeal.FirstArrays

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- Row r of block t is row 1024 t + r of the array. -/
def row (t : ℕ) (ht : t < 32) (r : Fin 1024) : Fin 32768 := ⟨t * 1024 + r.val, by have := r.isLt; omega⟩

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 32 grid points: the row-blocked windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

theorem lt32 (t : Fin cfg0.N) : t.val < 32 := lt_of_lt_of_eq t.isLt N_0

/-! ## The whole-array functions -/

/-- The hidden array. -/
def hidden (c : Dev nD) : S32768x500.Idx → EReal := fun i =>
  (∑ k : Fin 1280, Ideal.sign (V c main_arg0 (ix2 (i 0) k)) * V c main_v2 (ix2 k (i 1))) + V c main_arg2 (ix1 (i 1))

/-- The partial sums: row t sums the hidden array over block t's rows. -/
def sums (c : Dev nD) : S32x1x500.Idx → EReal := fun i =>
  ∑ r : Fin 1024, hidden V c (ix2 (row (i 0).val (i 0).isLt r) (i 2))

/-- The partial sums of squares. -/
def squares (c : Dev nD) : S32x1x500.Idx → EReal := fun i =>
  ∑ r : Fin 1024, hidden V c (ix2 (row (i 0).val (i 0).isLt r) (i 2)) * hidden V c (ix2 (row (i 0).val (i 0).isLt r) (i 2))

/-! ## The blocks a point reads -/

theorem input_block (c : Dev nD) (t : Fin cfg0.N) (r : Fin 1024) (k : Fin 1280) :
    iblk0 V c 0 t (ix2 r k) = V c main_arg0 (ix2 (row t.val (lt32 t) r) k) := by
  obtain ⟨e0, e1, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 1024 + 1 * r.val = t.val * 1024 + r.val; omega
  | ⟨1, _⟩ => show win0_0.index t (1 : Fin 2) * 1280 + 1 * k.val = k.val; omega

theorem weight_block (c : Dev nD) (t : Fin cfg0.N) (k : Fin 1280) (o : Fin 500) :
    iblk0 V c 1 t (ix2 k o) = V c main_v2 (ix2 k o) := by
  obtain ⟨-, -, e0, e1, -⟩ := idx_facts t
  show V c main_v2 (((cfg0.win 1).blk t).view.emb (ix2 k o)) = _
  refine congrArg (V c main_v2) (funext fun a => Fin.ext ?_)
  match a with
  | ⟨0, _⟩ => show win0_1.index t (0 : Fin 2) * 1280 + 1 * k.val = k.val; omega
  | ⟨1, _⟩ => show win0_1.index t (1 : Fin 2) * 500 + 1 * o.val = o.val; omega

theorem bias_block (c : Dev nD) (t : Fin cfg0.N) (o : Fin 500) :
    iblk0 V c 2 t (ix1 o) = V c main_arg2 (ix1 o) := by
  obtain ⟨-, -, -, -, e0, -⟩ := idx_facts t
  show V c main_arg2 (((cfg0.win 2).blk t).view.emb (ix1 o)) = _
  refine congrArg (V c main_arg2) (funext fun a => Fin.ext ?_)
  match a with
  | ⟨0, _⟩ => show win0_2.index t (0 : Fin 1) * 500 + 1 * o.val = o.val; omega

/-- What point t computes at (r, o) is the hidden array at (1024 t + r, o). -/
theorem hidden_block (c : Dev nD) (t : Fin cfg0.N) (r : Fin 1024) (o : Fin 500) :
    k0_pay1 (F := Ideal) (iblk0 V c 0 t) (iblk0 V c 1 t) (iblk0 V c 2 t) (ix2 r o)
      = hidden V c (ix2 (row t.val (lt32 t) r) o) := by
  rw [FirstLayer.hidden_apply (iblk0 V c 0 t) (iblk0 V c 1 t) (iblk0 V c 2 t) r o, bias_block V c t o]
  unfold hidden
  refine congrArg (· + V c main_arg2 (ix1 o)) (Finset.sum_congr rfl fun k _ => ?_)
  rw [input_block V c t r k, weight_block V c t k o]

/-! ## What a point writes back -/

theorem hidden_flushed (c : Dev nD) (t : Fin cfg0.N) :
    (dat0 V c).flushed 3 t = ((cfg0.win 3).blk t).view.read (Elt Ideal) (hidden V c) := by
  show (cfg0.win 3).cut (grid0.coords t) ((dat0 V c).after 3 t) = _
  rw [after0_3]
  unfold out0_3
  rw [View.canon_unit_zero hz2]
  simp only [View.ld_unit_zero (S := S1024x1280) hz2, View.ld_unit_zero (S := S1280x500) hz2, View.ld_unit_zero (S := S500) hz1]
  obtain ⟨-, -, -, -, -, e0, e1, -⟩ := idx_facts t
  funext y
  obtain ⟨r, o, rfl⟩ : ∃ (r : Fin 1024) (o : Fin 500), y = ix2 r o := ⟨y 0, y 1, eq_ix2 y⟩
  show k0_pay1 (F := Ideal) (iblk0 V c 0 t) (iblk0 V c 1 t) (iblk0 V c 2 t) (ix2 r o)
    = hidden V c (((cfg0.win 3).blk t).view.emb (ix2 r o))
  rw [hidden_block V c t r o]
  refine congrArg (hidden V c) (funext fun a => Fin.ext ?_)
  match a with
  | ⟨0, _⟩ => show t.val * 1024 + r.val = win0_3.index t (0 : Fin 2) * 1024 + 1 * r.val; omega
  | ⟨1, _⟩ => show o.val = win0_3.index t (1 : Fin 2) * 500 + 1 * o.val; omega

theorem sums_flushed (c : Dev nD) (t : Fin cfg0.N) :
    (dat0 V c).flushed 4 t = ((cfg0.win 4).blk t).view.read (Elt Ideal) (sums V c) := by
  show (cfg0.win 4).cut (grid0.coords t) ((dat0 V c).after 4 t) = _
  rw [after0_4]
  unfold out0_4
  rw [View.canon_unit_zero hz3]
  simp only [View.ld_unit_zero (S := S1024x1280) hz2, View.ld_unit_zero (S := S1280x500) hz2, View.ld_unit_zero (S := S500) hz1]
  obtain ⟨-, -, -, -, -, -, -, e0, e1, e2, -⟩ := idx_facts t
  funext y
  obtain ⟨u, v, o, rfl⟩ : ∃ (u v : Fin 1) (o : Fin 500), y = ix3 u v o := ⟨y 0, y 1, y 2, eq_ix3 y⟩
  show k0_pay2 (F := Ideal) (iblk0 V c 0 t) (iblk0 V c 1 t) (iblk0 V c 2 t) (ix3 u v o)
    = sums V c (((cfg0.win 4).blk t).view.emb (ix3 u v o))
  rw [FirstLayer.sums_apply (iblk0 V c 0 t) (iblk0 V c 1 t) (iblk0 V c 2 t) u v o]
  have hu : u.val = 0 := by omega
  have hv : v.val = 0 := by omega
  have hemb : ((cfg0.win 4).blk t).view.emb (ix3 u v o) = ix3 (⟨t.val, lt32 t⟩ : Fin 32) (0 : Fin 1) o :=
    funext fun a => Fin.ext (by
      match a with
      | ⟨0, _⟩ => show win0_4.index t (0 : Fin 3) * 1 + 1 * u.val = t.val; omega
      | ⟨1, _⟩ => show win0_4.index t (1 : Fin 3) * 1 + 1 * v.val = 0; omega
      | ⟨2, _⟩ => show win0_4.index t (2 : Fin 3) * 500 + 1 * o.val = o.val; omega)
  rw [hemb]
  unfold sums
  exact Finset.sum_congr rfl fun r _ => hidden_block V c t r o

theorem squares_flushed (c : Dev nD) (t : Fin cfg0.N) :
    (dat0 V c).flushed 5 t = ((cfg0.win 5).blk t).view.read (Elt Ideal) (squares V c) := by
  show (cfg0.win 5).cut (grid0.coords t) ((dat0 V c).after 5 t) = _
  rw [after0_5]
  unfold out0_5
  rw [View.canon_unit_zero hz3]
  simp only [View.ld_unit_zero (S := S1024x1280) hz2, View.ld_unit_zero (S := S1280x500) hz2, View.ld_unit_zero (S := S500) hz1]
  obtain ⟨-, -, -, -, -, -, -, -, -, -, e0, e1, e2⟩ := idx_facts t
  funext y
  obtain ⟨u, v, o, rfl⟩ : ∃ (u v : Fin 1) (o : Fin 500), y = ix3 u v o := ⟨y 0, y 1, y 2, eq_ix3 y⟩
  show k0_pay3 (F := Ideal) (iblk0 V c 0 t) (iblk0 V c 1 t) (iblk0 V c 2 t) (ix3 u v o)
    = squares V c (((cfg0.win 5).blk t).view.emb (ix3 u v o))
  rw [FirstLayer.squareSums_apply (iblk0 V c 0 t) (iblk0 V c 1 t) (iblk0 V c 2 t) u v o]
  have hu : u.val = 0 := by omega
  have hv : v.val = 0 := by omega
  have hemb : ((cfg0.win 5).blk t).view.emb (ix3 u v o) = ix3 (⟨t.val, lt32 t⟩ : Fin 32) (0 : Fin 1) o :=
    funext fun a => Fin.ext (by
      match a with
      | ⟨0, _⟩ => show win0_5.index t (0 : Fin 3) * 1 + 1 * u.val = t.val; omega
      | ⟨1, _⟩ => show win0_5.index t (1 : Fin 3) * 1 + 1 * v.val = 0; omega
      | ⟨2, _⟩ => show win0_5.index t (2 : Fin 3) * 500 + 1 * o.val = o.val; omega)
  rw [hemb]
  unfold squares
  exact Finset.sum_congr rfl fun r _ => by rw [hidden_block V c t r o]

/-! ## The blocks tile the arrays -/

theorem mem_hidden_block (t : Fin cfg0.N) (i : S32768x500.Idx) :
    i ∈ ((cfg0.win 3).blk t).view.set ↔ ∀ a : Fin 2, win0_3.index t a * S1024x500.size a ≤ (i a).val
      ∧ (i a).val < win0_3.index t a * S1024x500.size a + S1024x500.size a := by
  show i ∈ ((View.whole main_v6_0).slice (win0_3.rect t)).set ↔ _
  rw [View.set_slice_whole, Rect.mem_set_unit]
  exact Iff.rfl

theorem mem_sums_block (t : Fin cfg0.N) (i : S32x1x500.Idx) :
    i ∈ ((cfg0.win 4).blk t).view.set ↔ ∀ a : Fin 3, win0_4.index t a * S1x1x500.size a ≤ (i a).val
      ∧ (i a).val < win0_4.index t a * S1x1x500.size a + S1x1x500.size a := by
  show i ∈ ((View.whole main_v6_1).slice (win0_4.rect t)).set ↔ _
  rw [View.set_slice_whole, Rect.mem_set_unit]
  exact Iff.rfl

theorem mem_squares_block (t : Fin cfg0.N) (i : S32x1x500.Idx) :
    i ∈ ((cfg0.win 5).blk t).view.set ↔ ∀ a : Fin 3, win0_5.index t a * S1x1x500.size a ≤ (i a).val
      ∧ (i a).val < win0_5.index t a * S1x1x500.size a + S1x1x500.size a := by
  show i ∈ ((View.whole main_v6_2).slice (win0_5.rect t)).set ↔ _
  rw [View.set_slice_whole, Rect.mem_set_unit]
  exact Iff.rfl

theorem hidden_cover (i : S32768x500.Idx) :
    ∃ t : Fin cfg0.N, (cfg0.win 3).flush t = true ∧ i ∈ ((cfg0.win 3).blk t).view.set := by
  have h0 : (i 0).val < 32768 := (i 0).isLt
  have h1 : (i 1).val < 500 := (i 1).isLt
  have hN : cfg0.N = 32 := N_0
  let t : Fin cfg0.N := ⟨(i 0).val / 1024, by rw [hN]; omega⟩
  obtain ⟨-, -, -, -, -, e0, e1, -⟩ := idx_facts t
  have ht : t.val = (i 0).val / 1024 := rfl
  refine ⟨t, flush0_3 t, ?_⟩
  rw [mem_hidden_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 500 ≤ (i 1).val ∧ (i 1).val < win0_3.index t (1 : Fin 2) * 500 + 500; omega

theorem sums_cover (i : S32x1x500.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 500 := (i 2).isLt
  have hN : cfg0.N = 32 := N_0
  let t : Fin cfg0.N := ⟨(i 0).val, by rw [hN]; omega⟩
  obtain ⟨-, -, -, -, -, -, -, e0, e1, e2, -⟩ := idx_facts t
  have ht : t.val = (i 0).val := rfl
  refine ⟨t, flush0_4 t, ?_⟩
  rw [mem_sums_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 500 ≤ (i 2).val ∧ (i 2).val < win0_4.index t (2 : Fin 3) * 500 + 500; omega

theorem squares_cover (i : S32x1x500.Idx) :
    ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 500 := (i 2).isLt
  have hN : cfg0.N = 32 := N_0
  let t : Fin cfg0.N := ⟨(i 0).val, by rw [hN]; omega⟩
  obtain ⟨-, -, -, -, -, -, -, -, -, -, e0, e1, e2⟩ := idx_facts t
  have ht : t.val = (i 0).val := rfl
  refine ⟨t, flush0_5 t, ?_⟩
  rw [mem_squares_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 500 ≤ (i 2).val ∧ (i 2).val < win0_5.index t (2 : Fin 3) * 500 + 500; omega

/-! ## The arrays after the kernel -/

theorem hidden_final (c : Dev nD) : (dat0 V c).arrAt 3 cfg0.N = hidden V c :=
  (dat0 V c).arrAt_eq_of_cover 3 (hidden V c) (fun t _ => hidden_flushed V c t) hidden_cover

theorem sums_final (c : Dev nD) : (dat0 V c).arrAt 4 cfg0.N = sums V c :=
  (dat0 V c).arrAt_eq_of_cover 4 (sums V c) (fun t _ => sums_flushed V c t) sums_cover

theorem squares_final (c : Dev nD) : (dat0 V c).arrAt 5 cfg0.N = squares V c :=
  (dat0 V c).arrAt_eq_of_cover 5 (squares V c) (fun t _ => squares_flushed V c t) squares_cover

end Cert.KernelIdeal.FirstArrays

end
-- ==== Proof.SecondLayer.lean ====
/-
  What one grid point of the second kernel stores, entry by entry.

  The kernel holds a block of 1024 rows of hidden values (1024 x 500), the per-unit mean, variance, scale and shift
  (vectors of 500), the whole sign matrix of W2 laid out as 500 x 10, and the output bias.  Each per-unit vector is
  repeated down the 1024 rows, so at (r, j) it reads its entry j.  The hidden value is centred, multiplied by
  1/sqrt(variance + epsilon), scaled, shifted, clipped below at zero and replaced by its sign (the
  select-by-comparison form of the sign is the sign of the extended real); the sign block times the weight layout, a
  plain (1024 x 500) by (500 x 10) product, plus the bias along the rows is the block of outputs:

      y(r, q) = (sum over j < 500 of sign(max(((h(r,j) - mean j) * rsqrt(var j + eps)) * gamma j + beta j, 0)) * w(j, q)) + b(q).
-/
import proofs.«144757_j21904333209753_2_alg».proof.Proof.Gen.KernelIdeal.Skeleton
import proofs.«144757_j21904333209753_2_alg».proof.Proof.NetSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SecondLayer

open Idealize.ShloMosaic Idealize.ShloMosaic.ValueIdx Cert.KernelIdeal Cert.KernelIdeal.Gen Cert.NetSpec
open scoped BigOperators

/-- The left operand of the block product is read at the output's row … -/
theorem product_lhs_row (i : S1024x10.Idx) (q : dot_S1024x500_S500x10_S1024x10_1_0_0_1_n_n.contr.Idx) : (dot_S1024x500_S500x10_S1024x10_1_0_0_1_n_n.lhsIdx i q 0).val = (i 0).val := by
  unfold DotDims.lhsIdx
  rw [dif_neg (show ¬(0 : Fin S1024x500.rank) ∈ dot_S1024x500_S500x10_S1024x10_1_0_0_1_n_n.lhsBatch by decide),
    dif_pos (show (0 : Fin S1024x500.rank) ∈ dot_S1024x500_S500x10_S1024x10_1_0_0_1_n_n.lhsNonContracting by decide)]
  rfl
/-- … and the shared position, -/
theorem product_lhs_shared (i : S1024x10.Idx) (q : dot_S1024x500_S500x10_S1024x10_1_0_0_1_n_n.contr.Idx) :
    (dot_S1024x500_S500x10_S1024x10_1_0_0_1_n_n.lhsIdx i q 1).val = (q ⟨0, by decide⟩).val :=
  dot_S1024x500_S500x10_S1024x10_1_0_0_1_n_n.lhsIdx_val_of_single rfl i q
/-- the right operand at the shared position … -/
theorem product_rhs_shared (i : S1024x10.Idx) (q : dot_S1024x500_S500x10_S1024x10_1_0_0_1_n_n.contr.Idx) :
    (dot_S1024x500_S500x10_S1024x10_1_0_0_1_n_n.rhsIdx i q 0).val = (q ⟨0, by decide⟩).val :=
  dot_S1024x500_S500x10_S1024x10_1_0_0_1_n_n.rhsIdx_val_of_single rfl i q
/-- … and the output's column. -/
theorem product_rhs_col (i : S1024x10.Idx) (q : dot_S1024x500_S500x10_S1024x10_1_0_0_1_n_n.contr.Idx) : (dot_S1024x500_S500x10_S1024x10_1_0_0_1_n_n.rhsIdx i q 1).val = (i 1).val := by
  unfold DotDims.rhsIdx
  rw [dif_neg (show ¬(1 : Fin S500x10.rank) ∈ dot_S1024x500_S500x10_S1024x10_1_0_0_1_n_n.rhsBatch by decide),
    dif_pos (show (1 : Fin S500x10.rank) ∈ dot_S1024x500_S500x10_S1024x10_1_0_0_1_n_n.rhsNonContracting by decide)]
  rfl

/-- The block product into a zero accumulator, at (p, q): the sum over the 500 shared positions. -/
theorem product_apply (l : FVec Ideal S1024x500 .bf16) (r : FVec Ideal S500x10 .bf16) (p : Fin 1024) (q : Fin 10) :
    matmul dot_S1024x500_S500x10_S1024x10_1_0_0_1_n_n none l r (constant S1024x10 .f32 0x00000000#32) (ix2 p q) = ∑ j : Fin 500, l (ix2 p j) * r (ix2 j q) := by
  simp only [matmul]
  rw [Ideal.matmul_constant_zero_apply, ← Equiv.sum_comp (contrEquiv1 dot_S1024x500_S500x10_S1024x10_1_0_0_1_n_n 500 rfl rfl).symm]
  refine Finset.sum_congr rfl fun k _ => ?_
  have hk := contrEquiv1_symm_val dot_S1024x500_S500x10_S1024x10_1_0_0_1_n_n 500 rfl rfl k
  have el : dot_S1024x500_S500x10_S1024x10_1_0_0_1_n_n.lhsIdx (ix2 p q) ((contrEquiv1 dot_S1024x500_S500x10_S1024x10_1_0_0_1_n_n 500 rfl rfl).symm k) = ix2 p k :=
    funext fun a => Fin.ext (by
      match a with
      | ⟨0, _⟩ => exact product_lhs_row _ _
      | ⟨1, _⟩ => exact (product_lhs_shared _ _).trans hk)
  have er : dot_S1024x500_S500x10_S1024x10_1_0_0_1_n_n.rhsIdx (ix2 p q) ((contrEquiv1 dot_S1024x500_S500x10_S1024x10_1_0_0_1_n_n 500 rfl rfl).symm k) = ix2 k q :=
    funext fun a => Fin.ext (by
      match a with
      | ⟨0, _⟩ => exact (product_rhs_shared _ _).trans hk
      | ⟨1, _⟩ => exact product_rhs_col _ _)
  rw [el, er]

/-- A per-unit vector repeated down the 1024 rows reads, at (r, j), its entry j. -/
theorem perUnit_apply (y : FVec Ideal S500 .f32) (h1 : S500.ShapeCasts S1x500) (h2 : S1x500.Broadcasts S1024x500)
    (r : Fin 1024) (j : Fin 500) : broadcastTo S1024x500 (shapeCast S1x500 y h1) h2 (ix2 r j) = y (ix1 j) :=
  (broadcastTo_1b_ab_apply _ h2 r j).trans (shapeCast_a_1a_apply y h1 0 j)

/-- The output bias repeated down the 1024 rows reads, at (r, q), its entry q. -/
theorem perClass_apply (y : FVec Ideal S10 .f32) (h1 : S10.ShapeCasts S1x10) (h2 : S1x10.Broadcasts S1024x10)
    (r : Fin 1024) (q : Fin 10) : broadcastTo S1024x10 (shapeCast S1x10 y h1) h2 (ix2 r q) = y (ix1 q) :=
  (broadcastTo_1b_ab_apply _ h2 r q).trans (shapeCast_a_1a_apply y h1 0 q)

/-- The select-by-comparison sign of a block, narrowed to bf16, at (r, j): the sign of the entry. -/
theorem signBlock_apply (z : FVec Ideal S1024x500 .f32) (h : FTy.bits .bf16 < FTy.bits .f32) (r : Fin 1024) (j : Fin 500) :
    truncf .bf16 (select (cmpf .ogt (absf z) (broadcast S1024x500 (Scalar.ofBits .f32 0x00000000#32)))
        (select (cmpf .olt z (constant S1024x500 .f32 0x00000000#32)) (constant S1024x500 .f32 0xBF800000#32)
          (constant S1024x500 .f32 0x3F800000#32)) z) h (ix2 r j) = Ideal.sign (z (ix2 r j)) :=
  Ideal.jnp_sign_eq_sign_f32 (z (ix2 r j))

variable (v0 : Vec Ideal S1024x500 .f32) (v2 v4 v6 v7 : Vec Ideal S500 .f32) (v36 : Vec Ideal S500x10 .bf16)
  (v39 : Vec Ideal S10 .f32)

/-- The block of outputs the point stores, at (r, q). -/
theorem output_apply (r : Fin 1024) (q : Fin 10) :
    k1_pay1 (F := Ideal) v0 v2 v4 v6 v7 v36 v39 (ix2 r q)
      = (∑ j : Fin 500, Ideal.sign (max (((v0 (ix2 r j) - v2 (ix1 j)) * Ideal.rsqrt (v4 (ix1 j) + epsW)) * v6 (ix1 j)
            + v7 (ix1 j)) zeroW) * v36 (ix2 j q)) + v39 (ix1 q) := by
  unfold k1_pay1
  refine (addf_apply _ _ _).trans (congrArg₂ (· + ·) ?_ (perClass_apply v39 _ _ r q))
  refine (product_apply _ _ r q).trans (Finset.sum_congr rfl fun j _ => congrArg₂ (· * ·) ?_ ?_)
  · refine (signBlock_apply _ _ r j).trans (congrArg Ideal.sign ?_)
    refine (maximumf_apply _ _ _).trans (congrArg₂ max ?_ rfl)
    refine (addf_apply _ _ _).trans (congrArg₂ (· + ·) ?_ (perUnit_apply v7 _ _ r j))
    refine (mulf_apply _ _ _).trans (congrArg₂ (· * ·) ?_ (perUnit_apply v6 _ _ r j))
    refine (mulf_apply _ _ _).trans (congrArg₂ (· * ·) ?_ ?_)
    · exact (subf_apply _ _ _).trans (congrArg₂ (· - ·) (congrFun (shapeCast_self v0 _) _)
        ((perUnit_apply _ _ _ r j).trans (congrFun (shapeCast_self v2 _) _)))
    · refine (perUnit_apply _ _ _ r j).trans ?_
      exact congrArg (fun t => Ideal.rsqrt (t + epsW)) (congrFun (shapeCast_self v4 _) (ix1 j))
  · exact congrFun (shapeCast_self v36 _) (ix2 j q)

end Cert.KernelIdeal.SecondLayer

end
-- ==== Proof.SecondArrays.lean ====
/-
  The array the second kernel leaves, as a whole-array function of what it finds on entry.

  Grid point t holds rows 1024 t … 1024 t + 1023 of the hidden array and of the output, and the whole of every per-unit
  vector, of the second weight layout and of the output bias: a block's entry (r, j) of a row-blocked array is the
  array's entry (1024 t + r, j).  So what point t writes back is block t of

      output(b, q) = (sum over j < 500 of
          sign(max(((hidden(b,j) - mean j) * rsqrt(var j + eps)) * gamma j + beta j, 0)) * w(j, q)) + bias(q).

  The 32 blocks tile the output (row b lies in block b / 1024) and every point writes its block back, so the array
  ends as that function everywhere.
-/
import proofs.«144757_j21904333209753_2_alg».proof.Proof.Gen.KernelIdeal.Frame
import proofs.«144757_j21904333209753_2_alg».proof.Proof.SecondLayer

set_option maxRecDepth 16384

noncomputable section

namespace Cert.KernelIdeal.SecondArrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.NetSpec
open scoped BigOperators

variable (V : (c : Dev nD) → (b : Ref sig .tc) → Buf (Elt Ideal) ((c : Thread nD τ).loc b))

/-- Row r of block t is row 1024 t + r of the array. -/
def row (t : ℕ) (ht : t < 32) (r : Fin 1024) : Fin 32768 := ⟨t * 1024 + r.val, by have := r.isLt; omega⟩

theorem hz1 : (![0] : Fin 1 → Nat) = fun _ => 0 := funext fun a => by fin_cases a; rfl
theorem hz2 : (![0, 0] : Fin 2 → Nat) = fun _ => 0 := funext fun a => by fin_cases a <;> rfl

/-- The printed index maps over the 32 grid points: the row-blocked windows move with the point, the others stay. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem lt32 (t : Fin cfg1.N) : t.val < 32 := lt_of_lt_of_eq t.isLt N_1

/-- The output as a function of the seven arrays the kernel reads. -/
def outputOf (h : S32768x500.Idx → EReal) (mu va ga be : S500.Idx → EReal) (w : S500x10.Idx → EReal)
    (bq : S10.Idx → EReal) : S32768x10.Idx → EReal := fun i =>
  (∑ j : Fin 500, Ideal.sign (max (((h (ix2 (i 0) j) - mu (ix1 j)) * Ideal.rsqrt (va (ix1 j) + epsW)) * ga (ix1 j)
      + be (ix1 j)) zeroW) * w (ix2 j (i 1))) + bq (ix1 (i 1))

/-- The output array, of the entry contents. -/
def output (c : Dev nD) : S32768x10.Idx → EReal :=
  outputOf (V c main_v6_0) (V c main_v10) (V c main_v14) (V c main_arg3) (V c main_arg4) (V c main_v5) (V c main_arg6)

/-! ## The blocks a point reads -/

theorem hidden_block (c : Dev nD) (t : Fin cfg1.N) (r : Fin 1024) (j : Fin 500) :
    iblk1 V c 0 t (ix2 r j) = V c main_v6_0 (ix2 (row t.val (lt32 t) r) j) := by
  obtain ⟨e0, e1, -⟩ := idx_facts t
  show V c main_v6_0 (((cfg1.win 0).blk t).view.emb (ix2 r j)) = _
  refine congrArg (V c main_v6_0) (funext fun a => Fin.ext ?_)
  match a with
  | ⟨0, _⟩ => show win1_0.index t (0 : Fin 2) * 1024 + 1 * r.val = t.val * 1024 + r.val; omega
  | ⟨1, _⟩ => show win1_0.index t (1 : Fin 2) * 500 + 1 * j.val = j.val; omega

theorem mean_block (c : Dev nD) (t : Fin cfg1.N) (j : Fin 500) : iblk1 V c 1 t (ix1 j) = V c main_v10 (ix1 j) := by
  obtain ⟨-, -, e, -⟩ := idx_facts t
  show V c main_v10 (((cfg1.win 1).blk t).view.emb (ix1 j)) = _
  refine congrArg (V c main_v10) (funext fun a => Fin.ext ?_)
  match a with
  | ⟨0, _⟩ => show win1_1.index t (0 : Fin 1) * 500 + 1 * j.val = j.val; omega

theorem var_block (c : Dev nD) (t : Fin cfg1.N) (j : Fin 500) : iblk1 V c 2 t (ix1 j) = V c main_v14 (ix1 j) := by
  obtain ⟨-, -, -, e, -⟩ := idx_facts t
  show V c main_v14 (((cfg1.win 2).blk t).view.emb (ix1 j)) = _
  refine congrArg (V c main_v14) (funext fun a => Fin.ext ?_)
  match a with
  | ⟨0, _⟩ => show win1_2.index t (0 : Fin 1) * 500 + 1 * j.val = j.val; omega

theorem scale_block (c : Dev nD) (t : Fin cfg1.N) (j : Fin 500) : iblk1 V c 3 t (ix1 j) = V c main_arg3 (ix1 j) := by
  obtain ⟨-, -, -, -, e, -⟩ := idx_facts t
  show V c main_arg3 (((cfg1.win 3).blk t).view.emb (ix1 j)) = _
  refine congrArg (V c main_arg3) (funext fun a => Fin.ext ?_)
  match a with
  | ⟨0, _⟩ => show win1_3.index t (0 : Fin 1) * 500 + 1 * j.val = j.val; omega

theorem shift_block (c : Dev nD) (t : Fin cfg1.N) (j : Fin 500) : iblk1 V c 4 t (ix1 j) = V c main_arg4 (ix1 j) := by
  obtain ⟨-, -, -, -, -, e, -⟩ := idx_facts t
  show V c main_arg4 (((cfg1.win 4).blk t).view.emb (ix1 j)) = _
  refine congrArg (V c main_arg4) (funext fun a => Fin.ext ?_)
  match a with
  | ⟨0, _⟩ => show win1_4.index t (0 : Fin 1) * 500 + 1 * j.val = j.val; omega

theorem weight_block (c : Dev nD) (t : Fin cfg1.N) (j : Fin 500) (q : Fin 10) :
    iblk1 V c 5 t (ix2 j q) = V c main_v5 (ix2 j q) := by
  obtain ⟨-, -, -, -, -, -, e0, e1, -⟩ := idx_facts t
  show V c main_v5 (((cfg1.win 5).blk t).view.emb (ix2 j q)) = _
  refine congrArg (V c main_v5) (funext fun a => Fin.ext ?_)
  match a with
  | ⟨0, _⟩ => show win1_5.index t (0 : Fin 2) * 500 + 1 * j.val = j.val; omega
  | ⟨1, _⟩ => show win1_5.index t (1 : Fin 2) * 10 + 1 * q.val = q.val; omega

theorem bias_block (c : Dev nD) (t : Fin cfg1.N) (q : Fin 10) : iblk1 V c 6 t (ix1 q) = V c main_arg6 (ix1 q) := by
  obtain ⟨-, -, -, -, -, -, -, -, e, -⟩ := idx_facts t
  show V c main_arg6 (((cfg1.win 6).blk t).view.emb (ix1 q)) = _
  refine congrArg (V c main_arg6) (funext fun a => Fin.ext ?_)
  match a with
  | ⟨0, _⟩ => show win1_6.index t (0 : Fin 1) * 10 + 1 * q.val = q.val; omega

/-- What point t computes at (r, q) is the output array at (1024 t + r, q). -/
theorem output_block (c : Dev nD) (t : Fin cfg1.N) (r : Fin 1024) (q : Fin 10) :
    k1_pay1 (F := Ideal) (iblk1 V c 0 t) (iblk1 V c 1 t) (iblk1 V c 2 t) (iblk1 V c 3 t) (iblk1 V c 4 t) (iblk1 V c 5 t)
        (iblk1 V c 6 t) (ix2 r q)
      = output V c (ix2 (row t.val (lt32 t) r) q) := by
  rw [SecondLayer.output_apply (iblk1 V c 0 t) (iblk1 V c 1 t) (iblk1 V c 2 t) (iblk1 V c 3 t) (iblk1 V c 4 t)
    (iblk1 V c 5 t) (iblk1 V c 6 t) r q, bias_block V c t q]
  unfold output outputOf
  refine congrArg (· + V c main_arg6 (ix1 q)) (Finset.sum_congr rfl fun j _ => ?_)
  rw [hidden_block V c t r j, mean_block V c t j, var_block V c t j, scale_block V c t j, shift_block V c t j,
    weight_block V c t j q]

/-! ## What a point writes back, and the cover -/

theorem output_flushed (c : Dev nD) (t : Fin cfg1.N) :
    (dat1 V c).flushed 7 t = ((cfg1.win 7).blk t).view.read (Elt Ideal) (output V c) := by
  show (cfg1.win 7).cut (grid1.coords t) ((dat1 V c).after 7 t) = _
  rw [after1_7]
  unfold out1_7
  rw [View.canon_unit_zero hz2]
  simp only [View.ld_unit_zero (S := S1024x500) hz2, View.ld_unit_zero (S := S500) hz1, View.ld_unit_zero (S := S500x10) hz2,
    View.ld_unit_zero (S := S10) hz1]
  obtain ⟨-, -, -, -, -, -, -, -, -, e0, e1⟩ := idx_facts t
  funext y
  obtain ⟨r, q, rfl⟩ : ∃ (r : Fin 1024) (q : Fin 10), y = ix2 r q := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (ix2 r q)
    = output V c (((cfg1.win 7).blk t).view.emb (ix2 r q))
  rw [output_block V c t r q]
  refine congrArg (output V c) (funext fun a => Fin.ext ?_)
  match a with
  | ⟨0, _⟩ => show t.val * 1024 + r.val = win1_7.index t (0 : Fin 2) * 1024 + 1 * r.val; omega
  | ⟨1, _⟩ => show q.val = win1_7.index t (1 : Fin 2) * 10 + 1 * q.val; omega

theorem mem_output_block (t : Fin cfg1.N) (i : S32768x10.Idx) :
    i ∈ ((cfg1.win 7).blk t).view.set ↔ ∀ a : Fin 2, win1_7.index t a * S1024x10.size a ≤ (i a).val
      ∧ (i a).val < win1_7.index t a * S1024x10.size a + S1024x10.size a := by
  show i ∈ ((View.whole main_v15).slice (win1_7.rect t)).set ↔ _
  rw [View.set_slice_whole, Rect.mem_set_unit]
  exact Iff.rfl

theorem output_cover (i : S32768x10.Idx) :
    ∃ t : Fin cfg1.N, (cfg1.win 7).flush t = true ∧ i ∈ ((cfg1.win 7).blk t).view.set := by
  have h0 : (i 0).val < 32768 := (i 0).isLt
  have h1 : (i 1).val < 10 := (i 1).isLt
  have hN : cfg1.N = 32 := N_1
  let t : Fin cfg1.N := ⟨(i 0).val / 1024, by rw [hN]; omega⟩
  obtain ⟨-, -, -, -, -, -, -, -, -, e0, e1⟩ := idx_facts t
  have ht : t.val = (i 0).val / 1024 := rfl
  refine ⟨t, flush1_7 t, ?_⟩
  rw [mem_output_block]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 10 ≤ (i 1).val ∧ (i 1).val < win1_7.index t (1 : Fin 2) * 10 + 10; omega

/-- The output array after the kernel. -/
theorem output_final (c : Dev nD) : (dat1 V c).arrAt 7 cfg1.N = output V c :=
  (dat1 V c).arrAt_eq_of_cover 7 (output V c) (fun t _ => output_flushed V c t) output_cover

end Cert.KernelIdeal.SecondArrays

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.KernelNet.lean ====
/-
  The idealized kernel program computes the network of NetSpec.lean.

  Follow the TensorCore's buffers through the program's four stretches.
  * The first host lines lay each sign matrix out transposed: the layout of W1 at (k, o) is sign W1(o, k), that of W2
    at (j, q) is sign W2(q, j); narrowing to bf16 changes nothing over the extended reals.
  * The first kernel leaves the hidden array and, per block of 1024 rows, its column sums and column sums of squares
    (FirstArrays.lean).  With the layout read back, the hidden array at (b, o) is hid b o.
  * The middle host lines add the 32 partial rows (a reduction over the two leading axes of a 32 x 1 x 500 array: the
    indices that reduce into unit o are (t, 0, o), t < 32), divide by 32768, and subtract the squared mean.  Since
    32768 = 32 * 1024, the 32 sums of 1024 rows are the sum over the batch: addition of extended reals is commutative
    and associative, so regrouping is free.  That gives the mean, and the variance in its moments form.
  * The second kernel leaves the output array (SecondArrays.lean) of these.
  The moments form of the variance is the centred form where the first bias is real (NetSpec.lean), so the program's
  result is the network's result.
-/
import proofs.«144757_j21904333209753_2_alg».proof.Proof.Gen.KernelIdeal.Frame
import proofs.«144757_j21904333209753_2_alg».proof.Proof.FirstArrays
import proofs.«144757_j21904333209753_2_alg».proof.Proof.SecondArrays
import proofs.«144757_j21904333209753_2_alg».proof.Proof.NetSpec
import proofs.«144757_j21904333209753_2_alg».proof.Proof.LibSumBlocks
import Idealize.ShloMosaic.Lib.StableHlo.Run
import Idealize.ShloMosaic.Lib.ValueLayout
import Idealize.ShloMosaic.PureOps.Reduce

set_option maxRecDepth 16384

noncomputable section

namespace Cert.KernelIdeal.KernelNet

open Idealize.ShloMosaic Idealize.ShloMosaic.TcCoe Idealize.ShloMosaic.ValueIdx Idealize.SL.Sem
open Cert.KernelIdeal Cert.KernelIdeal.Gen Cert.NetSpec
open scoped BigOperators

/-! ## The host lines, over any contents -/

/-- A sign matrix laid out transposed (500 x 1280 to 1280 x 500). -/
def layout1 (w : FVec Ideal S500x1280 .f32) : FVec Ideal S1280x500 .bf16 :=
  transpose S1280x500 [1, 0] (truncf .bf16 (Host.sign w) bitsLt_bf16_f32) transposes_S500x1280_S1280x500_1_0

/-- A sign matrix laid out transposed (10 x 500 to 500 x 10). -/
def layout2 (w : FVec Ideal S10x500 .f32) : FVec Ideal S500x10 .bf16 :=
  transpose S500x10 [1, 0] (truncf .bf16 (Host.sign w) bitsLt_bf16_f32) transposes_S10x500_S500x10_1_0

theorem layout1_apply (w : FVec Ideal S500x1280 .f32) (k : Fin 1280) (o : Fin 500) :
    layout1 w (ix2 k o) = Ideal.sign (w (ix2 o k)) := transpose_ix2_apply _ _ k o

theorem layout2_apply (w : FVec Ideal S10x500 .f32) (j : Fin 500) (q : Fin 10) :
    layout2 w (ix2 j q) = Ideal.sign (w (ix2 q j)) := transpose_ix2_apply _ _ j q

/-- The mean over the batch from the 32 partial rows. -/
def meanOf (s : FVec Ideal S32x1x500 .f32) : FVec Ideal S500 .f32 :=
  Host.divf (Host.reduceAdd s (constant S_ .f32 0x00000000#32) reducesTo_S32x1x500_S500_d0_1 h_S_)
    (broadcastInDim S500 ![] bcast_S_S500 (constant S_ .f32 0x47000000#32))

/-- The variance from the 32 partial rows of sums and of squares: mean of the squares minus the squared mean. -/
def varOf (s q : FVec Ideal S32x1x500 .f32) : FVec Ideal S500 .f32 :=
  subf (Host.divf (Host.reduceAdd q (constant S_ .f32 0x00000000#32) reducesTo_S32x1x500_S500_d0_1 h_S_)
    (broadcastInDim S500 ![] bcast_S_S500 (constant S_ .f32 0x47000000#32))) (mulf (meanOf s) (meanOf s))

section Host

variable (U : Valuation τ sig (Elt Ideal))

theorem first_lines_layout1 :
    StableHlo.after hostOps0 U (Proc.devRef .tc main_v2) = layout1 (U (Proc.devRef .tc main_arg1)) := by
  after_results; rfl
theorem first_lines_layout2 :
    StableHlo.after hostOps0 U (Proc.devRef .tc main_v5) = layout2 (U (Proc.devRef .tc main_arg5)) := by
  after_results; rfl
theorem first_lines_arg0 : StableHlo.after hostOps0 U (Proc.devRef .tc main_arg0) = U (Proc.devRef .tc main_arg0) := by
  after_results
theorem first_lines_arg2 : StableHlo.after hostOps0 U (Proc.devRef .tc main_arg2) = U (Proc.devRef .tc main_arg2) := by
  after_results
theorem first_lines_arg3 : StableHlo.after hostOps0 U (Proc.devRef .tc main_arg3) = U (Proc.devRef .tc main_arg3) := by
  after_results
theorem first_lines_arg4 : StableHlo.after hostOps0 U (Proc.devRef .tc main_arg4) = U (Proc.devRef .tc main_arg4) := by
  after_results
theorem first_lines_arg6 : StableHlo.after hostOps0 U (Proc.devRef .tc main_arg6) = U (Proc.devRef .tc main_arg6) := by
  after_results

theorem middle_lines_mean :
    StableHlo.after hostOps1 U (Proc.devRef .tc main_v10) = meanOf (U (Proc.devRef .tc main_v6_1)) := by
  after_results; rfl
theorem middle_lines_var :
    StableHlo.after hostOps1 U (Proc.devRef .tc main_v14)
      = varOf (U (Proc.devRef .tc main_v6_1)) (U (Proc.devRef .tc main_v6_2)) := by
  after_results; rfl
theorem middle_lines_hidden : StableHlo.after hostOps1 U (Proc.devRef .tc main_v6_0) = U (Proc.devRef .tc main_v6_0) := by
  after_results
theorem middle_lines_layout2 : StableHlo.after hostOps1 U (Proc.devRef .tc main_v5) = U (Proc.devRef .tc main_v5) := by
  after_results
theorem middle_lines_arg3 : StableHlo.after hostOps1 U (Proc.devRef .tc main_arg3) = U (Proc.devRef .tc main_arg3) := by
  after_results
theorem middle_lines_arg4 : StableHlo.after hostOps1 U (Proc.devRef .tc main_arg4) = U (Proc.devRef .tc main_arg4) := by
  after_results
theorem middle_lines_arg6 : StableHlo.after hostOps1 U (Proc.devRef .tc main_arg6) = U (Proc.devRef .tc main_arg6) := by
  after_results

end Host

/-! ## The sum over the two leading axes of a 32 x 1 x 500 array -/

/-- The indices that reduce into unit o are (t, 0, o), t < 32: the host's sum there is the initial value plus the sum of
    the 32 partial rows' entries. -/
theorem partialRows_sum (x : S32x1x500.Idx → EReal) (init : EReal) (h : S32x1x500.ReducesTo [0, 1] S500) (o : Fin 500) :
    Ideal.hostReduceAdd h x init (ix1 o) = init + ∑ t : Fin 32, x (ix3 t (0 : Fin 1) o) := by
  unfold Ideal.hostReduceAdd
  refine congrArg (init + ·) (Finset.sum_bij (fun (t : Fin 32) _ => ix3 t (0 : Fin 1) o) ?_ ?_ ?_ ?_).symm
  · intro t _
    rw [Finset.mem_filter]
    exact ⟨Finset.mem_univ _, funext fun b => Fin.ext (by
      match b with
      | ⟨0, _⟩ => exact h.drop_apply_val_of_eq (ix3 t (0 : Fin 1) o) 0 2)⟩
  · intro t _ t' _ e
    exact congrFun e 0
  · intro i hi
    rw [Finset.mem_filter] at hi
    refine ⟨i 0, Finset.mem_univ _, funext fun a => Fin.ext ?_⟩
    match a with
    | ⟨0, _⟩ => rfl
    | ⟨1, _⟩ => have h1 : (i 1).val < 1 := (i 1).isLt; show 0 = (i 1).val; omega
    | ⟨2, _⟩ =>
      have e := congrArg (fun j : S500.Idx => (j 0).val) hi.2
      exact e.symm.trans (h.drop_apply_val_of_eq i 0 2)
  · intro t _; rfl

theorem meanOf_apply (s : FVec Ideal S32x1x500 .f32) (o : Fin 500) :
    meanOf s (ix1 o) = Ideal.div (zeroW + ∑ t : Fin 32, s (ix3 t (0 : Fin 1) o)) batchW := by
  unfold meanOf
  show Ideal.div (Ideal.hostReduceAdd reducesTo_S32x1x500_S500_d0_1 s zeroW (ix1 o)) batchW = _
  rw [partialRows_sum]

theorem varOf_apply (s q : FVec Ideal S32x1x500 .f32) (o : Fin 500) :
    varOf s q (ix1 o) = Ideal.div (zeroW + ∑ t : Fin 32, q (ix3 t (0 : Fin 1) o)) batchW - meanOf s (ix1 o) * meanOf s (ix1 o) := by
  unfold varOf
  show Ideal.div (Ideal.hostReduceAdd reducesTo_S32x1x500_S500_d0_1 q zeroW (ix1 o)) batchW - meanOf s (ix1 o) * meanOf s (ix1 o) = _
  rw [partialRows_sum]

/-- 32 blocks of 1024 rows are the 32768 rows. -/
theorem sum_rows (f : Fin 32768 → EReal) :
    ∑ t : Fin 32, ∑ r : Fin 1024, f (FirstArrays.row t.val t.isLt r) = ∑ b : Fin 32768, f b :=
  (Cert.Lib.SumBlocks.sum_blocks 32 1024 32768 rfl f (fun t r => FirstArrays.row t.val t.isLt r) (fun _ _ => rfl)).symm

/-! ## The buffers through the program -/

variable (m : (ℓ : Loc nD τ sig) → Buf (Elt Ideal) ℓ) (ρ : Dev nD → PrngReg) (c : Dev nD)

/-- The seven argument arrays as launched. -/
abbrev A0 : FVec Ideal S32768x1280 .f32 := m ((c : Thread nD τ).loc main_arg0)
abbrev A1 : FVec Ideal S500x1280 .f32 := m ((c : Thread nD τ).loc main_arg1)
abbrev A2 : FVec Ideal S500 .f32 := m ((c : Thread nD τ).loc main_arg2)
abbrev A3 : FVec Ideal S500 .f32 := m ((c : Thread nD τ).loc main_arg3)
abbrev A4 : FVec Ideal S500 .f32 := m ((c : Thread nD τ).loc main_arg4)
abbrev A5 : FVec Ideal S10x500 .f32 := m ((c : Thread nD τ).loc main_arg5)
abbrev A6 : FVec Ideal S10 .f32 := m ((c : Thread nD τ).loc main_arg6)

/-! ### On entry to the first kernel -/

theorem V1_arg0 : V1 m ρ c main_arg0 = A0 m c := first_lines_arg0 (W0 m ρ c)
theorem V1_arg2 : V1 m ρ c main_arg2 = A2 m c := first_lines_arg2 (W0 m ρ c)
theorem V1_layout1 : V1 m ρ c main_v2 = layout1 (A1 m c) := first_lines_layout1 (W0 m ρ c)

/-- The hidden array the first kernel leaves is the network's hidden value. -/
theorem hidden_eq (b : Fin 32768) (o : Fin 500) :
    FirstArrays.hidden (V1 m ρ) c (ix2 b o) = hid (A0 m c) (A1 m c) (A2 m c) b o := by
  unfold FirstArrays.hidden hid
  rw [V1_arg0 m ρ c, V1_arg2 m ρ c, V1_layout1 m ρ c]
  exact congrArg₂ (· + ·) (Finset.sum_congr rfl fun k _ => congrArg₂ (· * ·) rfl (layout1_apply (A1 m c) k o)) rfl

/-! ### After the first kernel -/

theorem W2_hidden : W2 m ρ c (Proc.devRef .tc main_v6_0) = FirstArrays.hidden (V1 m ρ) c :=
  (W2_arr m ρ c 3).trans (FirstArrays.hidden_final (V1 m ρ) c)
theorem W2_sums : W2 m ρ c (Proc.devRef .tc main_v6_1) = FirstArrays.sums (V1 m ρ) c :=
  (W2_arr m ρ c 4).trans (FirstArrays.sums_final (V1 m ρ) c)
theorem W2_squares : W2 m ρ c (Proc.devRef .tc main_v6_2) = FirstArrays.squares (V1 m ρ) c :=
  (W2_arr m ρ c 5).trans (FirstArrays.squares_final (V1 m ρ) c)

/-! ### On entry to the second kernel -/

theorem V3_hidden : V3 m ρ c main_v6_0 = FirstArrays.hidden (V1 m ρ) c :=
  (middle_lines_hidden (W2 m ρ c)).trans (W2_hidden m ρ c)
theorem V3_mean : V3 m ρ c main_v10 = meanOf (FirstArrays.sums (V1 m ρ) c) :=
  (middle_lines_mean (W2 m ρ c)).trans (congrArg meanOf (W2_sums m ρ c))
theorem V3_var : V3 m ρ c main_v14 = varOf (FirstArrays.sums (V1 m ρ) c) (FirstArrays.squares (V1 m ρ) c) :=
  (middle_lines_var (W2 m ρ c)).trans (congrArg₂ varOf (W2_sums m ρ c) (W2_squares m ρ c))
theorem V3_arg3 : V3 m ρ c main_arg3 = A3 m c :=
  (middle_lines_arg3 (W2 m ρ c)).trans ((W2_of_ne m ρ c main_arg3 (by decide)).trans (first_lines_arg3 (W0 m ρ c)))
theorem V3_arg4 : V3 m ρ c main_arg4 = A4 m c :=
  (middle_lines_arg4 (W2 m ρ c)).trans ((W2_of_ne m ρ c main_arg4 (by decide)).trans (first_lines_arg4 (W0 m ρ c)))
theorem V3_arg6 : V3 m ρ c main_arg6 = A6 m c :=
  (middle_lines_arg6 (W2 m ρ c)).trans ((W2_of_ne m ρ c main_arg6 (by decide)).trans (first_lines_arg6 (W0 m ρ c)))
theorem V3_layout2 : V3 m ρ c main_v5 = layout2 (A5 m c) :=
  (middle_lines_layout2 (W2 m ρ c)).trans ((W2_of_ne m ρ c main_v5 (by decide)).trans (first_lines_layout2 (W0 m ρ c)))

/-! ### The mean and the variance -/

theorem mean_eq (o : Fin 500) :
    meanOf (FirstArrays.sums (V1 m ρ) c) (ix1 o) = mean (A0 m c) (A1 m c) (A2 m c) o := by
  rw [meanOf_apply]
  unfold mean
  refine congrArg (fun s => Ideal.div (zeroW + s) batchW) ?_
  refine (Finset.sum_congr rfl fun t _ => ?_).trans (sum_rows fun b => hid (A0 m c) (A1 m c) (A2 m c) b o)
  show ∑ r : Fin 1024, FirstArrays.hidden (V1 m ρ) c (ix2 (FirstArrays.row t.val t.isLt r) o) = _
  exact Finset.sum_congr rfl fun r _ => hidden_eq m ρ c _ o

theorem varMoments_eq (o : Fin 500) :
    varOf (FirstArrays.sums (V1 m ρ) c) (FirstArrays.squares (V1 m ρ) c) (ix1 o)
      = varMoments (A0 m c) (A1 m c) (A2 m c) o := by
  rw [varOf_apply, mean_eq m ρ c o]
  unfold varMoments
  refine congrArg (fun s => Ideal.div (zeroW + s) batchW
    - mean (A0 m c) (A1 m c) (A2 m c) o * mean (A0 m c) (A1 m c) (A2 m c) o) ?_
  refine (Finset.sum_congr rfl fun t _ => ?_).trans
    (sum_rows fun b => hid (A0 m c) (A1 m c) (A2 m c) b o * hid (A0 m c) (A1 m c) (A2 m c) b o)
  show ∑ r : Fin 1024, FirstArrays.hidden (V1 m ρ) c (ix2 (FirstArrays.row t.val t.isLt r) o)
      * FirstArrays.hidden (V1 m ρ) c (ix2 (FirstArrays.row t.val t.isLt r) o) = _
  exact Finset.sum_congr rfl fun r _ => by rw [hidden_eq m ρ c _ o]

/-! ## The result -/

/-- Where the first bias is real, the array the second kernel leaves is the network's result. -/
theorem result_eq (hb : ∀ o : Fin 500, ∃ q : ℝ, A2 m c (ix1 o) = (q : EReal)) :
    (dat1 (V3 m ρ) c).arrAt 7 cfg1.N = result (A0 m c) (A1 m c) (A2 m c) (A3 m c) (A4 m c) (A5 m c) (A6 m c) := by
  rw [SecondArrays.output_final (V3 m ρ) c]
  unfold SecondArrays.output
  rw [V3_hidden m ρ c, V3_mean m ρ c, V3_var m ρ c, V3_arg3 m ρ c, V3_arg4 m ρ c, V3_layout2 m ρ c, V3_arg6 m ρ c]
  funext i
  obtain ⟨b, q, rfl⟩ : ∃ (b : Fin 32768) (q : Fin 10), i = ix2 b q := ⟨i 0, i 1, eq_ix2 i⟩
  show (∑ j : Fin 500, Ideal.sign (max (((FirstArrays.hidden (V1 m ρ) c (ix2 b j)
          - meanOf (FirstArrays.sums (V1 m ρ) c) (ix1 j))
        * Ideal.rsqrt (varOf (FirstArrays.sums (V1 m ρ) c) (FirstArrays.squares (V1 m ρ) c) (ix1 j) + epsW))
        * A3 m c (ix1 j) + A4 m c (ix1 j)) zeroW) * layout2 (A5 m c) (ix2 j q)) + A6 m c (ix1 q)
    = (∑ j : Fin 500, act (A0 m c) (A1 m c) (A2 m c) (A3 m c) (A4 m c) (varCentred (A0 m c) (A1 m c) (A2 m c)) b j
        * Ideal.sign (A5 m c (ix2 q j))) + A6 m c (ix1 q)
  refine congrArg (· + A6 m c (ix1 q)) (Finset.sum_congr rfl fun j _ => ?_)
  rw [hidden_eq m ρ c b j, mean_eq m ρ c j, varMoments_eq m ρ c j,
    varMoments_eq_varCentred (A0 m c) (A1 m c) (A2 m c) j (hb j), layout2_apply]
  rfl

end Cert.KernelIdeal.KernelNet

end
-- ==== Proof.lean ====
/-
  A two-layer binarised network with batch normalisation, as two Pallas kernels, against its jnp reference: both
  compute one function of the inputs over the extended reals.

  The kernel program replaces inputs and weights by their signs, multiplies (a block of 1024 batch rows per grid
  point), adds the bias, and keeps per block the column sums of the hidden values and of their squares; between its two
  kernels it adds the 32 partial sums, divides by the batch size 32768, and takes the variance as the mean of the
  squares minus the squared mean; its second kernel normalises, scales, shifts, clips at zero, takes signs again and
  multiplies with the second sign matrix.  The reference does the same on whole arrays, with the variance as the mean
  of the squared deviations.

  What joins them (Proof/NetSpec.lean): the two variances are one number where the hidden values are real, and they are
  as soon as the first bias is, which the precondition gives (Proof/FiniteBias.lean); every other difference — the
  tiling, the order and grouping of the sums, the narrowing of the signs to bf16, the kernel's select-by-comparison
  sign against the host's sign, a block product against a whole product — is no difference over the extended reals.
  Proof/RefNet.lean reads the reference's run as the network, Proof/KernelNet.lean the kernel program's buffers
  through its four stretches, Proof/WholeRun.lean names the kernel program's result.  The two sign-bit rewrites of the
  idealization are the rule's own statement at the two block shapes.
-/
import proofs.«144757_j21904333209753_2_alg».proof.Defs
import proofs.«144757_j21904333209753_2_alg».proof.Proof.Gen.Kernel
import proofs.«144757_j21904333209753_2_alg».proof.Proof.Gen.Kernel.Skeleton
import proofs.«144757_j21904333209753_2_alg».proof.Proof.Gen.Kernel.Launch
import proofs.«144757_j21904333209753_2_alg».proof.Proof.Gen.Kernel.Points
import proofs.«144757_j21904333209753_2_alg».proof.Proof.Gen.Kernel.Frame
import proofs.«144757_j21904333209753_2_alg».proof.Proof.Gen.KernelIdeal
import proofs.«144757_j21904333209753_2_alg».proof.Proof.Gen.KernelIdeal.Skeleton
import proofs.«144757_j21904333209753_2_alg».proof.Proof.Gen.KernelIdeal.Launch
import proofs.«144757_j21904333209753_2_alg».proof.Proof.Gen.KernelIdeal.Points
import proofs.«144757_j21904333209753_2_alg».proof.Proof.Gen.KernelIdeal.Frame
import proofs.«144757_j21904333209753_2_alg».proof.Proof.Gen.ReferenceIdeal
import proofs.«144757_j21904333209753_2_alg».proof.Proof.Gen.Pre_finite_inputs
import proofs.«144757_j21904333209753_2_alg».proof.Proof.Gen.ReferenceIdeal.Run
import proofs.«144757_j21904333209753_2_alg».proof.Proof.Gen.ReferenceIdeal.Read
import proofs.«144757_j21904333209753_2_alg».proof.Proof.NetSpec
import proofs.«144757_j21904333209753_2_alg».proof.Proof.RefNet
import proofs.«144757_j21904333209753_2_alg».proof.Proof.FiniteBias
import proofs.«144757_j21904333209753_2_alg».proof.Proof.WholeRun
import proofs.«144757_j21904333209753_2_alg».proof.Proof.KernelNet
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two places where the kernel reads a float's sign bit through its word: over the extended reals "the sign bit
    is set" is "below zero", which is the rule's statement at each block shape. -/
theorem preserves : Cert.preserves_Kernel_KernelIdeal :=
  ⟨IdealRules.sign_bit.statement Cert.KernelIdeal.S1024x1280 .f32, IdealRules.sign_bit.statement Cert.KernelIdeal.S1024x500 .f32⟩

/-- From memories agreeing on the arguments both idealized programs end with the network's result array. -/
theorem algebraic : Cert.algebraic_KernelIdeal_ReferenceIdeal := by
  intro m ρ m' ρ' hpre hagree
  refine ⟨fun c => Cert.NetSpec.result (Cert.KernelIdeal.KernelNet.A0 m c) (Cert.KernelIdeal.KernelNet.A1 m c)
    (Cert.KernelIdeal.KernelNet.A2 m c) (Cert.KernelIdeal.KernelNet.A3 m c) (Cert.KernelIdeal.KernelNet.A4 m c)
    (Cert.KernelIdeal.KernelNet.A5 m c) (Cert.KernelIdeal.KernelNet.A6 m c), ?_, ?_⟩
  · refine (θ_run Cert.KernelIdeal.defs _ _).mono (fun r h c => ⟨(h c).1.trans ?_, (h c).2⟩)
      (Cert.KernelIdeal.WholeRun.run (F := Ideal) m ρ)
    exact Cert.KernelIdeal.KernelNet.result_eq m ρ c fun o =>
      Cert.FiniteBias.bias_real _ _ _ _ _ _ _ (hpre c) o
  · refine (θ_run Cert.ReferenceIdeal.defs _ _).mono (fun r h c => ⟨?_, (h c).2⟩)
      (Cert.ReferenceIdeal.Value.run (F := Ideal) m' ρ')
    rw [(h c).1, Cert.ReferenceIdeal.Read.val_main_v37_eq, Cert.RefNet.ref_result, (hagree c).1, (hagree c).2.1,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
